-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  main_v53

def fn_part2 {F : FTy → Type} [FloatOps F] (main_arg8 : FVec F S256 .f32) (main_arg9 : FVec F S256x128 .f32) (main_arg10 : FVec F S128 .f32) (main_arg11 : FVec F S256x128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_v48 main_v49 main_v50

def fn_part1 {F : FTy → Type} [FloatOps F] (main_arg5 : FVec F S256 .f32) (main_arg6 : FVec F S128x256 .f32) (main_arg7 : FVec F S256x256 .f32) (main_arg8 : FVec F S256 .f32) (main_arg9 : FVec F S256x128 .f32) (main_arg10 : FVec F S128 .f32) (main_arg11 : FVec F S256x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128x256 .f32) (main_arg5 : FVec F S256 .f32) (main_arg6 : FVec F S128x256 .f32) (main_arg7 : FVec F S256x256 .f32) (main_arg8 : FVec F S256 .f32) (main_arg9 : FVec F S256x128 .f32) (main_arg10 : FVec F S128 .f32) (main_arg11 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S5000x128 : Shape := ⟨2, ![5000, 128]⟩
abbrev S800000x128 : Shape := ⟨2, ![800000, 128]⟩
abbrev S1x256 : Shape := ⟨2, ![1, 256]⟩
abbrev S50000x256 : Shape := ⟨2, ![50000, 256]⟩
abbrev S5000x1 : Shape := ⟨2, ![5000, 1]⟩
abbrev S5000x256 : Shape := ⟨2, ![5000, 256]⟩
abbrev S800000x256 : Shape := ⟨2, ![800000, 256]⟩
abbrev S5000 : Shape := ⟨1, ![5000]⟩

abbrev nBuf : Space → Nat
  | .hbm => 63
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S128x256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S256x128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S50000x1, .f32⟩
  | .hbm, ⟨23, _⟩ => ⟨S_, .f32⟩
  | .hbm, ⟨24, _⟩ => ⟨S50000x1, .f32⟩
  | .hbm, ⟨25, _⟩ => ⟨S50000x1, .f32⟩
  | .hbm, ⟨26, _⟩ => ⟨S_, .f32⟩
  | .hbm, ⟨27, _⟩ => ⟨S50000x1, .f32⟩
  | .hbm, ⟨28, _⟩ => ⟨S50000x1, .f32⟩
  | .hbm, ⟨29, _⟩ => ⟨S1x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S1x256, .f32⟩
  | .hbm, ⟨45, _⟩ => ⟨S1x256, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S1x128, .f32⟩
  | .hbm, ⟨62, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x128, .f32⟩
  | .local _ .vmem, ⟨11, _⟩ => ⟨S5000x128, .f32⟩
  | .local _ .vmem, ⟨12, _⟩ => ⟨S128x256, .f32⟩
  | .local _ .vmem, ⟨13, _⟩ => ⟨S1x256, .f32⟩
  | .local _ .vmem, ⟨14, _⟩ => ⟨S128x256, .f32⟩
  | .local _ .vmem, ⟨15, _⟩ => ⟨S256x256, .f32⟩
  | .local _ .vmem, ⟨16, _⟩ => ⟨S1x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S5000x256, .f32⟩
  | .local _ .vmem, ⟨23, _⟩ => ⟨S5000x1, .f32⟩
  | .local _ .vmem, ⟨24, _⟩ => ⟨S5000x1, .f32⟩
  | .local _ .vmem, ⟨25, _⟩ => ⟨S5000x256, .f32⟩
  | .local _ .vmem, ⟨26, _⟩ => ⟨S5000x256, .f32⟩
  | .local _ .vmem, ⟨27, _⟩ => ⟨S256x128, .f32⟩
  | .local _ .vmem, ⟨28, _⟩ => ⟨S1x128, .f32⟩
  | .local _ .vmem, ⟨29, _⟩ => ⟨S256x128, .f32⟩
  | .local _ .vmem, ⟨30, _⟩ => ⟨S5000x128, .f32⟩
  | .local _ .vmem, ⟨31, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27_0 : Ref sig .tc := ⟨.hbm, 46, rfl⟩
abbrev main_v27_1 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc1_stg9_0 : Ref sig .tc := ⟨.vmem, 19, rfl⟩
abbrev cc1_stg9_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc1_sem9_0 : DmaSem sig := 19
abbrev cc1_sem9_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S5000x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x1 : S_.BroadcastsInDim S50000x1 (![] : Fin 0 → Fin S50000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S50000x128 : S_.BroadcastsInDim S50000x128 (![] : Fin 0 → Fin S50000x128.rank)
  shapeCasts_S256_S1x256 : S256.ShapeCasts S1x256
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  shapeCasts_S5000x256_S5000x256 : S5000x256.ShapeCasts S5000x256
  broadcasts_S5000x1_S5000x256 : S5000x1.Broadcasts S5000x256
  inb_S256x128_S256x128_0_0 : ∀ a, (![0, 0] : Fin 2 → Nat) a + S256x128.size a ≤ S256x128.size a
  h_S256x128 : 0 < S256x128.numel
  reduces_S5000x128_S5000 : S5000x128.Reduces [1] S5000
  shapeCasts_S5000_S5000x1 : S5000.ShapeCasts S5000x1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  dot_S5000x256_S256x256_S5000x256_1_0_0_1_n_n_wf : DotDims.WF S5000x256 S256x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .f32 = 32 ∨ (Rect.block (s := S128x256) S128x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x256.size a ≤ S50000x256.size a
  hwx1_8 : ∀ i : grid1.Coords, EltTy.bits .f32 = 32 ∨ (Rect.block (s := S50000x256) S5000x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x256.size a ≤ S50000x256.size a
  hwx1_9 : ∀ i : grid1.Coords, EltTy.bits .f32 = 32 ∨ (Rect.block (s := S50000x256) S5000x256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S256x128.size a
  hwx2_5 : ∀ i : grid2.Coords, EltTy.bits .f32 = 32 ∨ (Rect.block (s := S256x128) S256x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v27_0) S5000x256.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v27_1) S5000x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v37) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27_0) S5000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S256x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩

abbrev nBuf : Space → Nat
  | .hbm => 108
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S128x256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S256x128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S50000x128, .f32⟩
  | .hbm, ⟨17, _⟩ => ⟨S1x128, .f32⟩
  | .hbm, ⟨18, _⟩ => ⟨S50000x128, .f32⟩
  | .hbm, ⟨19, _⟩ => ⟨S50000x128, .f32⟩
  | .hbm, ⟨20, _⟩ => ⟨S_, .f32⟩
  | .hbm, ⟨21, _⟩ => ⟨S50000x128, .f32⟩
  | .hbm, ⟨22, _⟩ => ⟨S50000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S_, .f32⟩
  | .hbm, ⟨37, _⟩ => ⟨S800000, .f32⟩
  | .hbm, ⟨38, _⟩ => ⟨S_, .f32⟩
  | .hbm, ⟨39, _⟩ => ⟨S50000, .f32⟩
  | .hbm, ⟨40, _⟩ => ⟨S800000x1, .i32⟩
  | .hbm, ⟨41, _⟩ => ⟨S50000, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S50000x256, .f32⟩
  | .hbm, ⟨49, _⟩ => ⟨S1x256, .f32⟩
  | .hbm, ⟨50, _⟩ => ⟨S50000x256, .f32⟩
  | .hbm, ⟨51, _⟩ => ⟨S50000x256, .f32⟩
  | .hbm, ⟨52, _⟩ => ⟨S50000x256, .f32⟩
  | .hbm, ⟨53, _⟩ => ⟨S50000x256, .f32⟩
  | .hbm, ⟨54, _⟩ => ⟨S_, .f32⟩
  | .hbm, ⟨55, _⟩ => ⟨S50000x256, .f32⟩
  | .hbm, ⟨56, _⟩ => ⟨S50000x256, .f32⟩
  | .hbm, ⟨57, _⟩ => ⟨S50000x256, .f32⟩
  | .hbm, ⟨58, _⟩ => ⟨S1x256, .f32⟩
  | .hbm, ⟨59, _⟩ => ⟨S50000x256, .f32⟩
  | .hbm, ⟨60, _⟩ => ⟨S50000x256, .f32⟩
  | .hbm, ⟨61, _⟩ => ⟨S_, .f32⟩
  | .hbm, ⟨62, _⟩ => ⟨S50000x256, .f32⟩
  | .hbm, ⟨63, _⟩ => ⟨S50000x256, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x256, .f32⟩
  | .hbm, ⟨73, _⟩ => ⟨S_, .f32⟩
  | .hbm, ⟨74, _⟩ => ⟨S50000x256, .f32⟩
  | .hbm, ⟨75, _⟩ => ⟨S800000x1, .i32⟩
  | .hbm, ⟨76, _⟩ => ⟨S50000x256, .f32⟩
  | .hbm, ⟨77, _⟩ => ⟨S_, .f32⟩
  | .hbm, ⟨78, _⟩ => ⟨S800000, .f32⟩
  | .hbm, ⟨79, _⟩ => ⟨S_, .f32⟩
  | .hbm, ⟨80, _⟩ => ⟨S50000, .f32⟩
  | .hbm, ⟨81, _⟩ => ⟨S800000x1, .i32⟩
  | .hbm, ⟨82, _⟩ => ⟨S50000, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S50000x1, .f32⟩
  | .hbm, ⟨87, _⟩ => ⟨S50000x256, .f32⟩
  | .hbm, ⟨88, _⟩ => ⟨S50000x256, .f32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S50000, .f32⟩
  | .hbm, ⟨98, _⟩ => ⟨S50000x1, .f32⟩
  | .hbm, ⟨99, _⟩ => ⟨S50000x1, .f32⟩
  | .hbm, ⟨100, _⟩ => ⟨S_, .f32⟩
  | .hbm, ⟨101, _⟩ => ⟨S50000x1, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S_, .f32⟩
  | .hbm, ⟨106, _⟩ => ⟨S50000x128, .f32⟩
  | .hbm, ⟨107, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_cst : Ref sig .tc := ⟨.hbm, 20, rfl⟩
abbrev main_call0_v0 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call1_cst : Ref sig .tc := ⟨.hbm, 54, rfl⟩
abbrev main_call1_v0 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call2_cst : Ref sig .tc := ⟨.hbm, 61, rfl⟩
abbrev main_call2_v0 : Ref sig .tc := ⟨.hbm, 62, rfl⟩
abbrev main_v39 : Ref sig .tc := ⟨.hbm, 63, rfl⟩
abbrev main_c_4 : Ref sig .tc := ⟨.hbm, 64, rfl⟩
abbrev main_v40 : Ref sig .tc := ⟨.hbm, 65, rfl⟩
abbrev main_v41 : Ref sig .tc := ⟨.hbm, 66, rfl⟩
abbrev main_c_5 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_10 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_11 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_call3_cst : Ref sig .tc := ⟨.hbm, 105, rfl⟩
abbrev main_call3_v0 : Ref sig .tc := ⟨.hbm, 106, rfl⟩
abbrev main_v73 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  reducesTo_S50000x128_S50000_d1 : S50000x128.ReducesTo [1] S50000
  h_S_ : 0 < S_.numel
  bcast_S_S50000x1 : S_.BroadcastsInDim S50000x1 (![] : Fin 0 → Fin S50000x1.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel's run with its RESULT array named.

  @main is three grid regions among stretches of host operations. After the last region every unscoped
  buffer of a core holds the contents `W6` — the launch memory pushed through the first stretch, the first
  region's write-backs, the second stretch, the second region's write-backs, the third stretch and the
  third region's write-backs. The frame claim reads only the twelve argument arrays out of that final
  state; the value claim also needs the returned array, so the same run is stated here with the returned
  array at `W6` beside the unchanged arguments.
-/
import proofs.«101149_j6871947673826_2_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- Every weakly fair execution of the idealized kernel's @main terminates without a fault, with the returned
    array at the final contents `W6` and every argument array as launched. -/
theorem run_out : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.RunOut

end
-- ==== Proof.Spec.lean ====
/-
  The network both programs compute, as ROW FORMULAS on the extended reals.

  Every node's output row depends on that node's own rows of the operand arrays and on whole weight
  matrices, so each stage is a function of rows:
    * `lin a w j`        one dense layer on a row: the sum over `k` of `a k · w[k, j]`;
    * `projRow`          a layer, its bias, and the positive part: `max (lin x w j + b j) 0`;
    * `combRow`          the aggregated term plus the root term: `(lin mean wl j + bl j) + lin x wr j`;
    * `normRow`          a row divided by `max (‖row‖₂) ε`, then the positive part.
  The float words `0`, `1` and `ε` stay as the words both programs print; only `1` is ever evaluated.

  The one algebraic law between the two programs: a neighbourhood sum is turned into a mean either by
  dividing by the clamped neighbour count `c = max cnt 1`, or by multiplying with the reciprocal `1 / c`
  computed beforehand. On the extended reals `x / c` is `x · c⁻¹` whenever `c ≠ 0`, so the two agree for
  every `x`, finite or not (`mul_recip`); and `c ≥ 1` is never zero (`max_one_ne_zero`).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- One dense layer on a row: `∑ k, a k · w[k, j]`. -/
def lin {K D : Nat} (a : Fin K → EReal) (w : (⟨2, ![K, D]⟩ : Shape).Idx → EReal) (j : Fin D) : EReal :=
  ∑ k : Fin K, a k * w (ix2 k j)

/-- The positive part, against the float word `0.0` both programs print. -/
def relu (x : EReal) : EReal := max x (Ideal.ofBits .f32 0x00000000#32)

/-- A projection layer on a row: `max (∑ k, x k · w[k, j] + b j) 0`. -/
def projRow {K D : Nat} (x : Fin K → EReal) (w : (⟨2, ![K, D]⟩ : Shape).Idx → EReal) (b : Fin D → EReal)
    (j : Fin D) : EReal :=
  relu (lin x w j + b j)

/-- The combination of a node's aggregated neighbourhood (`mean`) and its own features (`x`):
    `(∑ k, mean k · wl[k, j] + bl j) + ∑ k, x k · wr[k, j]`. -/
def combRow {K D : Nat} (mean x : Fin K → EReal) (wl : (⟨2, ![K, D]⟩ : Shape).Idx → EReal) (bl : Fin D → EReal)
    (wr : (⟨2, ![K, D]⟩ : Shape).Idx → EReal) (j : Fin D) : EReal :=
  (lin mean wl j + bl j) + lin x wr j

/-- A row scaled by its Euclidean norm clamped below at `ε`, then the positive part. -/
def normRow {D : Nat} (o : Fin D → EReal) (j : Fin D) : EReal :=
  relu (Ideal.div (o j) (max (Ideal.sqrt (∑ l : Fin D, o l * o l)) (Ideal.ofBits .f32 0x2B8CBCCC#32)))

/-- The float word `0x3F800000` is the real number one. -/
theorem one_f32 : Ideal.ofBits .f32 0x3F800000#32 = 1 := by
  simp [Ideal.ofBits, Ideal.ieee, -EReal.coe_mul]; norm_num

/-- Multiplying by the reciprocal `1 / c` is dividing by `c`, for every extended real `x` and every `c ≠ 0`. -/
theorem mul_recip (x c : EReal) (hc : c ≠ 0) :
    x * Ideal.div (Ideal.ofBits .f32 0x3F800000#32) c = Ideal.div x c := by
  rw [one_f32]; unfold Ideal.div; rw [if_neg hc, if_neg hc, one_mul]

/-- A count clamped below at one is never zero. -/
theorem max_one_ne_zero (a : EReal) : max a (Ideal.ofBits .f32 0x3F800000#32) ≠ 0 := by
  rw [one_f32]; exact (lt_of_lt_of_le zero_lt_one (le_max_right a 1)).ne'

/-! Each row formula depends on its arguments only through their values: the congruences used to move a
    formula from a block's rows to the whole array's rows. -/

theorem projRow_congr {K D : Nat} {x x' : Fin K → EReal} {w w' : (⟨2, ![K, D]⟩ : Shape).Idx → EReal}
    {b b' : Fin D → EReal} {j j' : Fin D}
    (hx : ∀ k, x k = x' k) (hw : w = w') (hb : ∀ j, b j = b' j) (hj : j = j') :
    projRow x w b j = projRow x' w' b' j' := by
  subst hj hw; rw [show x = x' from funext hx, show b = b' from funext hb]

theorem combRow_congr {K D : Nat} {mean mean' x x' : Fin K → EReal} {wl wl' wr wr' : (⟨2, ![K, D]⟩ : Shape).Idx → EReal}
    {bl bl' : Fin D → EReal} {j j' : Fin D}
    (hm : ∀ k, mean k = mean' k) (hx : ∀ k, x k = x' k) (hwl : wl = wl') (hbl : ∀ j, bl j = bl' j) (hwr : wr = wr')
    (hj : j = j') : combRow mean x wl bl wr j = combRow mean' x' wl' bl' wr' j' := by
  subst hj hwl hwr
  rw [show mean = mean' from funext hm, show x = x' from funext hx, show bl = bl' from funext hbl]

theorem normRow_congr {D : Nat} {o o' : Fin D → EReal} {j j' : Fin D} (ho : ∀ l, o l = o' l) (hj : j = j') :
    normRow o j = normRow o' j' := by
  subst hj; rw [show o = o' from funext ho]

end Cert.Spec

end
-- ==== Proof.KernelRows.lean ====
/-
  The four stored values of the three kernel bodies, read at one element.

  Each body works on a block of 5000 node rows. Its stored value at row `p`, column `q` depends only on row
  `p` of the row-blocked operands and on the whole weight and bias blocks: it is the row formula of
  the specification applied to those rows. The matrix products into a zero accumulator are plain sums
  over the contracted axis; a [1, D] bias broadcast along rows reads its column; a [5000, 1] column
  broadcast along lanes reads its row; the lane sum of squares is a sum over the row.
-/
import proofs.«101149_j6871947673826_2_alg».proof.Proof.Gen.KernelIdeal.Skeleton
import proofs.«101149_j6871947673826_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Rows

open Cert.KernelIdeal Cert.KernelIdeal.Gen Cert.Spec Idealize.ShloMosaic Idealize.ShloMosaic.ValueIdx

/-! ## A matrix product into the zero accumulator, read at an element -/

/-- A product of an `[M, K]` by a `[K, N]` block into the zero accumulator is, at `(p, q)`, the sum over the
    contracted axis of row `p` of the left block times column `q` of the right one. The four hypotheses say which
    coordinate of each operand index is the output's and which is the contraction's. -/
theorem matmul_zero_ix2 {M K N : Nat} (d : DotDims ⟨2, ![M, K]⟩ ⟨2, ![K, N]⟩ ⟨2, ![M, N]⟩)
    (prec : Option ContractPrecision) (hr : d.contr.rank = 1) (hs : d.contr.size ⟨0, by omega⟩ = K)
    (hl0 : ∀ (i : (⟨2, ![M, N]⟩ : Shape).Idx) (c : d.contr.Idx), (d.lhsIdx i c 0).val = (i 0).val)
    (hl1 : ∀ (i : (⟨2, ![M, N]⟩ : Shape).Idx) (c : d.contr.Idx), (d.lhsIdx i c 1).val = (c ⟨0, by omega⟩).val)
    (hr0 : ∀ (i : (⟨2, ![M, N]⟩ : Shape).Idx) (c : d.contr.Idx), (d.rhsIdx i c 0).val = (c ⟨0, by omega⟩).val)
    (hr1 : ∀ (i : (⟨2, ![M, N]⟩ : Shape).Idx) (c : d.contr.Idx), (d.rhsIdx i c 1).val = (i 1).val)
    (l : FVec Ideal ⟨2, ![M, K]⟩ .f32) (r : FVec Ideal ⟨2, ![K, N]⟩ .f32) (p : Fin M) (q : Fin N) :
    matmul d prec l r (constant (F := Ideal) ⟨2, ![M, N]⟩ .f32 0x00000000#32) (ix2 p q)
      = ∑ k : Fin K, l (ix2 p k) * r (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The layer-1 projection's product: `[5000, 128]` by `[128, 128]`. -/
theorem matmul_128_128 (l : FVec Ideal S5000x128 .f32) (r : FVec Ideal S128x128 .f32) (p : Fin 5000) (q : Fin 128) :
    matmul dot_S5000x128_S128x128_S5000x128_1_0_0_1_n_n (some .fp32) l r
        (constant (F := Ideal) S5000x128 .f32 0x00000000#32) (ix2 p q)
      = ∑ k : Fin 128, l (ix2 p k) * r (ix2 k q) :=
  matmul_zero_ix2 dot_S5000x128_S128x128_S5000x128_1_0_0_1_n_n _ rfl rfl
    (fun i c => by
      unfold DotDims.lhsIdx
      rw [dif_neg (show ¬(0 : Fin S5000x128.rank) ∈ dot_S5000x128_S128x128_S5000x128_1_0_0_1_n_n.lhsBatch by decide),
        dif_pos (show (0 : Fin S5000x128.rank) ∈ dot_S5000x128_S128x128_S5000x128_1_0_0_1_n_n.lhsNonContracting by decide)]
      rfl)
    (fun i c => dot_S5000x128_S128x128_S5000x128_1_0_0_1_n_n.lhsIdx_val_of_single rfl i c)
    (fun i c => dot_S5000x128_S128x128_S5000x128_1_0_0_1_n_n.rhsIdx_val_of_single rfl i c)
    (fun i c => by
      unfold DotDims.rhsIdx
      rw [dif_neg (show ¬(1 : Fin S128x128.rank) ∈ dot_S5000x128_S128x128_S5000x128_1_0_0_1_n_n.rhsBatch by decide),
        dif_pos (show (1 : Fin S128x128.rank) ∈ dot_S5000x128_S128x128_S5000x128_1_0_0_1_n_n.rhsNonContracting by decide)]
      rfl)
    l r p q

/-- Layer 1's two combination products: `[5000, 128]` by `[128, 256]`. -/
theorem matmul_128_256 (l : FVec Ideal S5000x128 .f32) (r : FVec Ideal S128x256 .f32) (p : Fin 5000) (q : Fin 256) :
    matmul dot_S5000x128_S128x256_S5000x256_1_0_0_1_n_n (some .fp32) l r
        (constant (F := Ideal) S5000x256 .f32 0x00000000#32) (ix2 p q)
      = ∑ k : Fin 128, l (ix2 p k) * r (ix2 k q) :=
  matmul_zero_ix2 dot_S5000x128_S128x256_S5000x256_1_0_0_1_n_n _ rfl rfl
    (fun i c => by
      unfold DotDims.lhsIdx
      rw [dif_neg (show ¬(0 : Fin S5000x128.rank) ∈ dot_S5000x128_S128x256_S5000x256_1_0_0_1_n_n.lhsBatch by decide),
        dif_pos (show (0 : Fin S5000x128.rank) ∈ dot_S5000x128_S128x256_S5000x256_1_0_0_1_n_n.lhsNonContracting by decide)]
      rfl)
    (fun i c => dot_S5000x128_S128x256_S5000x256_1_0_0_1_n_n.lhsIdx_val_of_single rfl i c)
    (fun i c => dot_S5000x128_S128x256_S5000x256_1_0_0_1_n_n.rhsIdx_val_of_single rfl i c)
    (fun i c => by
      unfold DotDims.rhsIdx
      rw [dif_neg (show ¬(1 : Fin S128x256.rank) ∈ dot_S5000x128_S128x256_S5000x256_1_0_0_1_n_n.rhsBatch by decide),
        dif_pos (show (1 : Fin S128x256.rank) ∈ dot_S5000x128_S128x256_S5000x256_1_0_0_1_n_n.rhsNonContracting by decide)]
      rfl)
    l r p q

/-- The layer-2 projection's product: `[5000, 256]` by `[256, 256]`. -/
theorem matmul_256_256 (l : FVec Ideal S5000x256 .f32) (r : FVec Ideal S256x256 .f32) (p : Fin 5000) (q : Fin 256) :
    matmul dot_S5000x256_S256x256_S5000x256_1_0_0_1_n_n (some .fp32) l r
        (constant (F := Ideal) S5000x256 .f32 0x00000000#32) (ix2 p q)
      = ∑ k : Fin 256, l (ix2 p k) * r (ix2 k q) :=
  matmul_zero_ix2 dot_S5000x256_S256x256_S5000x256_1_0_0_1_n_n _ rfl rfl
    (fun i c => by
      unfold DotDims.lhsIdx
      rw [dif_neg (show ¬(0 : Fin S5000x256.rank) ∈ dot_S5000x256_S256x256_S5000x256_1_0_0_1_n_n.lhsBatch by decide),
        dif_pos (show (0 : Fin S5000x256.rank) ∈ dot_S5000x256_S256x256_S5000x256_1_0_0_1_n_n.lhsNonContracting by decide)]
      rfl)
    (fun i c => dot_S5000x256_S256x256_S5000x256_1_0_0_1_n_n.lhsIdx_val_of_single rfl i c)
    (fun i c => dot_S5000x256_S256x256_S5000x256_1_0_0_1_n_n.rhsIdx_val_of_single rfl i c)
    (fun i c => by
      unfold DotDims.rhsIdx
      rw [dif_neg (show ¬(1 : Fin S256x256.rank) ∈ dot_S5000x256_S256x256_S5000x256_1_0_0_1_n_n.rhsBatch by decide),
        dif_pos (show (1 : Fin S256x256.rank) ∈ dot_S5000x256_S256x256_S5000x256_1_0_0_1_n_n.rhsNonContracting by decide)]
      rfl)
    l r p q

/-- Layer 2's two combination products: `[5000, 256]` by `[256, 128]`. -/
theorem matmul_256_128 (l : FVec Ideal S5000x256 .f32) (r : FVec Ideal S256x128 .f32) (p : Fin 5000) (q : Fin 128) :
    matmul dot_S5000x256_S256x128_S5000x128_1_0_0_1_n_n (some .fp32) l r
        (constant (F := Ideal) S5000x128 .f32 0x00000000#32) (ix2 p q)
      = ∑ k : Fin 256, l (ix2 p k) * r (ix2 k q) :=
  matmul_zero_ix2 dot_S5000x256_S256x128_S5000x128_1_0_0_1_n_n _ rfl rfl
    (fun i c => by
      unfold DotDims.lhsIdx
      rw [dif_neg (show ¬(0 : Fin S5000x256.rank) ∈ dot_S5000x256_S256x128_S5000x128_1_0_0_1_n_n.lhsBatch by decide),
        dif_pos (show (0 : Fin S5000x256.rank) ∈ dot_S5000x256_S256x128_S5000x128_1_0_0_1_n_n.lhsNonContracting by decide)]
      rfl)
    (fun i c => dot_S5000x256_S256x128_S5000x128_1_0_0_1_n_n.lhsIdx_val_of_single rfl i c)
    (fun i c => dot_S5000x256_S256x128_S5000x128_1_0_0_1_n_n.rhsIdx_val_of_single rfl i c)
    (fun i c => by
      unfold DotDims.rhsIdx
      rw [dif_neg (show ¬(1 : Fin S256x128.rank) ∈ dot_S5000x256_S256x128_S5000x128_1_0_0_1_n_n.rhsBatch by decide),
        dif_pos (show (1 : Fin S256x128.rank) ∈ dot_S5000x256_S256x128_S5000x128_1_0_0_1_n_n.rhsNonContracting by decide)]
      rfl)
    l r p q

/-! ## Broadcasts and the lane sum, read at an element -/

/-- An `[a, 1]` column broadcast along lanes to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the 128 lanes of a `[5000, 128]` block, kept as a `[5000, 1]` column, is at `(p, c)` the sum of
    row `p`. -/
theorem laneSum_apply (v : FVec Ideal S5000x128 .f32) (hφ : FKind.Formats .f32)
    (hacc : (0x00000000#32 : BitVec 32) = 0x00000000#32) (p : Fin 5000) (c : Fin 1) :
    shapeCast S5000x1 (multiReduction (F := Ideal) .add [1] S5000 v 0x00000000#32 reduces_S5000x128_S5000 hφ hacc)
        shapeCasts_S5000_S5000x1 (ix2 p c)
      = ∑ k : Fin 128, v (ix2 p k) := by
  refine (shapeCast_apply _ shapeCasts_S5000_S5000x1 (ix2 p c) (ix1 p) ?_).trans ?_
  · rw [Shape.rowMajor_val_one, Shape.rowMajor_val_two]
    have hc : c.val = 0 := by omega
    show p.val = p.val * 1 + c.val
    rw [hc, Nat.mul_one, Nat.add_zero]
  · refine (Ideal.multiReduction_add_single v 0x00000000#32 reduces_S5000x128_S5000 hφ hacc (ix1 p)).trans ?_
    show ∑ k : Fin 128, v (reduces_S5000x128_S5000.lift (ix1 p) k) = ∑ k : Fin 128, v (ix2 p k)
    refine Finset.sum_congr rfl fun k _ => congrArg v (funext fun a => Fin.ext ?_)
    match a with
    | ⟨0, _⟩ => rfl
    | ⟨1, _⟩ => rfl

/-- A square root at an index is the square root of the element. -/
theorem sqrt_apply {s : Shape} {φ : FTy} (a : FVec Ideal s φ) (i : s.Idx) : sqrt a i = Ideal.sqrt (a i) := rfl

/-! ## The four stored values -/

/-- Layer 1's projection body: row `p` of the block through the layer, its bias, and the positive part. -/
theorem proj_row (x : Vec Ideal S5000x128 .f32) (w : Vec Ideal S128x128 .f32) (b : Vec Ideal S1x128 .f32)
    (p : Fin 5000) (q : Fin 128) :
    k0_pay1 (F := Ideal) x w b (ix2 p q)
      = projRow (fun k : Fin 128 => x (ix2 p k)) w (fun j : Fin 128 => b (ix2 (0 : Fin 1) j)) q := by
  unfold k0_pay1
  simp only [maximumf_apply, addf_apply, broadcast_apply, matmul_128_128, broadcastTo_1b_ab_apply, shapeCast_self]
  rfl

/-- Layer 1's output row: the neighbourhood sum times the reciprocal count through `wl`, plus `bl`, plus the
    node's own features through `wr`, then the positive part. -/
def hidRow (s : Vec Ideal S5000x128 .f32) (ic : Vec Ideal S5000x1 .f32) (wl : Vec Ideal S128x256 .f32)
    (bl : Vec Ideal S1x256 .f32) (x : Vec Ideal S5000x128 .f32) (wr : Vec Ideal S128x256 .f32)
    (p : Fin 5000) (q : Fin 256) : EReal :=
  relu (combRow (fun k : Fin 128 => s (ix2 p k) * ic (ix2 p (0 : Fin 1))) (fun k : Fin 128 => x (ix2 p k)) wl
    (fun j : Fin 256 => bl (ix2 (0 : Fin 1) j)) wr q)

theorem hid_row (s : Vec Ideal S5000x128 .f32) (ic : Vec Ideal S5000x1 .f32) (wl : Vec Ideal S128x256 .f32)
    (bl : Vec Ideal S1x256 .f32) (x : Vec Ideal S5000x128 .f32) (wr : Vec Ideal S128x256 .f32)
    (p : Fin 5000) (q : Fin 256) :
    k1_pay1 (F := Ideal) s ic wl bl x wr (ix2 p q) = hidRow s ic wl bl x wr p q := by
  unfold k1_pay1
  simp only [maximumf_apply, addf_apply, mulf_apply, broadcast_apply, matmul_128_256, broadcastTo_1b_ab_apply,
    broadcastTo_a1_ab_apply, shapeCast_self]
  rfl

/-- Layer 2's projection of layer 1's output row, in the same body. -/
theorem hidproj_row (s : Vec Ideal S5000x128 .f32) (ic : Vec Ideal S5000x1 .f32) (wl : Vec Ideal S128x256 .f32)
    (bl : Vec Ideal S1x256 .f32) (x : Vec Ideal S5000x128 .f32) (wr : Vec Ideal S128x256 .f32)
    (w2p : Vec Ideal S256x256 .f32) (b2p : Vec Ideal S1x256 .f32) (p : Fin 5000) (q : Fin 256) :
    k1_pay2 (F := Ideal) s ic wl bl x wr w2p b2p (ix2 p q)
      = projRow (fun k : Fin 256 => hidRow s ic wl bl x wr p k) w2p (fun j : Fin 256 => b2p (ix2 (0 : Fin 1) j)) q := by
  unfold k1_pay2
  simp only [maximumf_apply, addf_apply, broadcast_apply, matmul_256_256, broadcastTo_1b_ab_apply, shapeCast_self,
    hid_row]
  rfl

/-- Layer 2's output row: the combination, scaled by its clamped Euclidean norm, then the positive part. -/
theorem out_row (s2 : Vec Ideal S5000x256 .f32) (ic : Vec Ideal S5000x1 .f32) (wl : Vec Ideal S256x128 .f32)
    (bl : Vec Ideal S1x128 .f32) (h : Vec Ideal S5000x256 .f32) (wr : Vec Ideal S256x128 .f32)
    (p : Fin 5000) (q : Fin 128) :
    k2_pay1 (F := Ideal) s2 ic wl bl h wr (ix2 p q)
      = normRow (fun l : Fin 128 => combRow (fun k : Fin 256 => s2 (ix2 p k) * ic (ix2 p (0 : Fin 1)))
          (fun k : Fin 256 => h (ix2 p k)) wl (fun j : Fin 128 => bl (ix2 (0 : Fin 1) j)) wr l) q := by
  unfold k2_pay1
  simp only [maximumf_apply, divf_apply, addf_apply, mulf_apply, sqrt_apply, broadcast_apply, matmul_256_128,
    broadcastTo_1b_ab_apply, broadcastTo_a1_ab_apply, shapeCast_self]
  rw [laneSum_apply]
  simp only [addf_apply, mulf_apply, matmul_256_128, broadcastTo_1b_ab_apply, broadcastTo_a1_ab_apply]
  rfl

end Cert.KernelIdeal.Rows

end
-- ==== Proof.Blocks0.lean ====
/-
  The first region's output array: layer 1's projected features of every node.

  The region runs its body at ten grid points; point `t` reads rows `5000·t … 5000·t + 4999` of the node
  features, the whole weight matrix and the whole bias row, and writes back rows `5000·t …` of the output.
  What point `t` writes back is therefore block `t` of ONE function of the arrays the region finds: the
  projection row formula at each node. The ten blocks tile the 50000 rows, so after the region the output
  array IS that function.
-/
import proofs.«101149_j6871947673826_2_alg».proof.Proof.Gen.KernelIdeal.Frame
import proofs.«101149_j6871947673826_2_alg».proof.Proof.Spec
import proofs.«101149_j6871947673826_2_alg».proof.Proof.KernelRows
import Idealize.ShloMosaic.Lib.Pipeline.Value

set_option maxRecDepth 16384

noncomputable section

namespace Cert.KernelIdeal.Blocks

open Cert.KernelIdeal Cert.KernelIdeal.Gen Cert.KernelIdeal.Rows Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Layer 1's projected features as one function of the node features, the weights and the [1, 128] bias row. -/
def proj1 (X : S50000x128.Idx → EReal) (W : S128x128.Idx → EReal) (B : S1x128.Idx → EReal) : S50000x128.Idx → EReal :=
  fun i => projRow (fun k : Fin 128 => X (ix2 (i 0) k)) W (fun j : Fin 128 => B (ix2 (0 : Fin 1) j)) (i 1)

/-- The index maps over the grid: the features and the output move down the rows with the point, the weights and
    the bias stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the projection of the arrays the region finds. -/
theorem flushed0 (c : Dev nD) (t : Fin cfg0.N) :
    (dat0 V c).flushed 3 t
      = ((cfg0.win 3).blk t).view.read (Elt Ideal) (proj1 (V c main_arg0) (V c main_arg2) (V c main_v13)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  obtain ⟨e00, e01, e10, e11, e20, e21, e30, e31⟩ := idx_facts0 t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
      = proj1 (V c main_arg0) (V c main_arg2) (V c main_v13) (((cfg0.win 3).blk t).view.emb (ix2 p q))
  refine (proj_row _ _ _ p q).trans ?_
  unfold proj1
  refine projRow_congr (fun k => ?_) ?_ (fun j' => ?_) ?_
  · -- the features' block row `p` is row `5000·t + p` of the array
    show V c main_arg0 (((cfg0.win 0).blk t).view.emb (ix2 p k))
        = V c main_arg0 (ix2 ((((cfg0.win 3).blk t).view.emb (ix2 p q)) 0) k)
    refine congrArg (V c main_arg0) (funext fun a => Fin.ext ?_)
    match a with
    | ⟨0, _⟩ =>
      show win0_0.index t (0 : Fin 2) * 5000 + 1 * p.val = win0_3.index t (0 : Fin 2) * 5000 + 1 * p.val
      omega
    | ⟨1, _⟩ =>
      show win0_0.index t (1 : Fin 2) * 128 + 1 * k.val = k.val
      omega
  · -- the weights' block is the whole matrix
    funext z
    show V c main_arg2 (((cfg0.win 1).blk t).view.emb z) = V c main_arg2 z
    refine congrArg (V c main_arg2) (funext fun a => Fin.ext ?_)
    match a with
    | ⟨0, _⟩ =>
      show win0_1.index t (0 : Fin 2) * 128 + 1 * (z 0).val = (z 0).val
      omega
    | ⟨1, _⟩ =>
      show win0_1.index t (1 : Fin 2) * 128 + 1 * (z 1).val = (z 1).val
      omega
  · -- the bias row's block is the whole row
    show V c main_v13 (((cfg0.win 2).blk t).view.emb (ix2 (0 : Fin 1) j')) = V c main_v13 (ix2 (0 : Fin 1) j')
    refine congrArg (V c main_v13) (funext fun a => Fin.ext ?_)
    match a with
    | ⟨0, _⟩ =>
      show win0_2.index t (0 : Fin 2) * 1 + 1 * 0 = 0
      omega
    | ⟨1, _⟩ =>
      show win0_2.index t (1 : Fin 2) * 128 + 1 * j'.val = j'.val
      omega
  · -- the output block's column is the array's column
    apply Fin.ext
    show q.val = win0_3.index t (1 : Fin 2) * 128 + 1 * q.val
    omega

/-- An index of the output array lies in point `t`'s block iff each coordinate lies in the block's range. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v14).slice (win0_3.rect t)).set ↔ _
  rw [View.set_slice_whole, Rect.mem_set_unit]
  exact Iff.rfl

/-- Row `r` of the output lies in the block of the point `r / 5000`: the ten blocks tile the array. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 10 := N_0
  have ht : (i 0).val / 5000 < grid0.N := by omega
  obtain ⟨e00, e01, e10, e11, e20, e21, e30, e31⟩ := idx_facts0 ⟨(i 0).val / 5000, ht⟩
  have e30' : win0_3.index ⟨(i 0).val / 5000, ht⟩ (0 : Fin 2) = (i 0).val / 5000 := e30
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    omega

/-- After the region the output array is the projection of the arrays the region found. -/
theorem final0 (c : Dev nD) :
    (dat0 V c).arrAt 3 cfg0.N = proj1 (V c main_arg0) (V c main_arg2) (V c main_v13) :=
  (dat0 V c).arrAt_eq_of_cover 3 _ (fun t _ => flushed0 V c t) cover0

end Cert.KernelIdeal.Blocks

end
-- ==== Proof.Blocks1.lean ====
/-
  The second region's two output arrays: layer 1's output and layer 2's projected features, of every node.

  Point `t` reads rows `5000·t …` of the neighbourhood sums, of the reciprocal-count column and of the node
  features, and whole weight and bias blocks; it writes back rows `5000·t …` of both outputs. Row `p` of what
  it writes is the row formula of node `5000·t + p`: the sum times the reciprocal count through `wl`, plus
  `bl`, plus the node's features through `wr`, positive part (first output); and that row projected through
  layer 2's weights and bias, positive part (second output). The blocks tile the rows, so each output array is
  one function of the arrays the region finds.
-/
import proofs.«101149_j6871947673826_2_alg».proof.Proof.Gen.KernelIdeal.Frame
import proofs.«101149_j6871947673826_2_alg».proof.Proof.Spec
import proofs.«101149_j6871947673826_2_alg».proof.Proof.KernelRows
import proofs.«101149_j6871947673826_2_alg».proof.Proof.Blocks0
import Idealize.ShloMosaic.Lib.Pipeline.Value

set_option maxRecDepth 16384

noncomputable section

namespace Cert.KernelIdeal.Blocks

open Cert.KernelIdeal Cert.KernelIdeal.Gen Cert.KernelIdeal.Rows Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Layer 1's output as one function of the neighbourhood sums, the reciprocal-count column, the node features,
    the two weight matrices and the [1, 256] bias row. -/
def hid1 (S : S50000x128.Idx → EReal) (IC : S50000x1.Idx → EReal) (X : S50000x128.Idx → EReal)
    (WL : S128x256.Idx → EReal) (BL : S1x256.Idx → EReal) (WR : S128x256.Idx → EReal) : S50000x256.Idx → EReal :=
  fun i => relu (combRow (fun k : Fin 128 => S (ix2 (i 0) k) * IC (ix2 (i 0) (0 : Fin 1)))
    (fun k : Fin 128 => X (ix2 (i 0) k)) WL (fun j : Fin 256 => BL (ix2 (0 : Fin 1) j)) WR (i 1))

/-- Layer 2's projected features: layer 1's output row through the projection. -/
def hidproj1 (S : S50000x128.Idx → EReal) (IC : S50000x1.Idx → EReal) (X : S50000x128.Idx → EReal)
    (WL : S128x256.Idx → EReal) (BL : S1x256.Idx → EReal) (WR : S128x256.Idx → EReal)
    (W2 : S256x256.Idx → EReal) (B2 : S1x256.Idx → EReal) : S50000x256.Idx → EReal :=
  fun i => projRow (fun k : Fin 256 => hid1 S IC X WL BL WR (ix2 (i 0) k)) W2 (fun j : Fin 256 => B2 (ix2 (0 : Fin 1) j)) (i 1)

/-- The index maps over the grid: the three row-blocked inputs and the two outputs move down the rows with the
    point, the weights and biases stay. -/
theorem idx_facts1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = t.val
    ∧ win1_8.index t (1 : Fin 2) = 0
    ∧ win1_9.index t (0 : Fin 2) = t.val
    ∧ win1_9.index t (1 : Fin 2) = 0 :=
  (by decide +kernel : ∀ t : Fin grid1.N, _)

/-- Row `p` of point `t`'s blocks is row `5000·t + p` of the arrays: layer 1's output row. -/
theorem hid_block (c : Dev nD) (t : Fin cfg1.N) (p : Fin 5000) (q : Fin 256) (i : S50000x256.Idx)
    (hi0 : (i 0).val = t.val * 5000 + p.val) (hi1 : (i 1).val = q.val) :
    hidRow (iblk1 V c 0 t) (iblk1 V c 1 t) (iblk1 V c 3 t) (iblk1 V c 4 t) (iblk1 V c 2 t) (iblk1 V c 5 t) p q = hid1 (V c main_v24) (V c main_v12) (V c main_arg0) (V c main_arg4) (V c main_v25) (V c main_arg6) i := by
  obtain ⟨e0_0, e0_1, e1_0, e1_1, e2_0, e2_1, e3_0, e3_1, e4_0, e4_1, e5_0, e5_1, e6_0, e6_1, e7_0, e7_1, e8_0, e8_1, e9_0, e9_1⟩ := idx_facts1 t
  unfold hidRow hid1
  refine congrArg relu (combRow_congr (fun k => ?_) (fun k => ?_) ?_ (fun j' => ?_) ?_ (Fin.ext hi1.symm))
  · -- the neighbourhood sum and the reciprocal count of the row
    have hS : iblk1 V c 0 t (ix2 p k) = V c main_v24 (ix2 (i 0) k) := by
      show V c main_v24 (((cfg1.win 0).blk t).view.emb (ix2 p k)) = V c main_v24 (ix2 (i 0) k)
      refine congrArg (V c main_v24) (funext fun a => Fin.ext ?_)
      match a with
      | ⟨0, _⟩ =>
        show win1_0.index t (0 : Fin 2) * 5000 + 1 * p.val = (i 0).val
        omega
      | ⟨1, _⟩ =>
        show win1_0.index t (1 : Fin 2) * 128 + 1 * k.val = k.val
        omega
    have hI : iblk1 V c 1 t (ix2 p (0 : Fin 1)) = V c main_v12 (ix2 (i 0) (0 : Fin 1)) := by
      show V c main_v12 (((cfg1.win 1).blk t).view.emb (ix2 p (0 : Fin 1))) = V c main_v12 (ix2 (i 0) (0 : Fin 1))
      refine congrArg (V c main_v12) (funext fun a => Fin.ext ?_)
      match a with
      | ⟨0, _⟩ =>
        show win1_1.index t (0 : Fin 2) * 5000 + 1 * p.val = (i 0).val
        omega
      | ⟨1, _⟩ =>
        show win1_1.index t (1 : Fin 2) * 1 + 1 * 0 = 0
        omega
    exact congrArg₂ (fun u v : EReal => u * v) hS hI
  · -- the node's own features
    have hX : iblk1 V c 2 t (ix2 p k) = V c main_arg0 (ix2 (i 0) k) := by
      show V c main_arg0 (((cfg1.win 2).blk t).view.emb (ix2 p k)) = V c main_arg0 (ix2 (i 0) k)
      refine congrArg (V c main_arg0) (funext fun a => Fin.ext ?_)
      match a with
      | ⟨0, _⟩ =>
        show win1_2.index t (0 : Fin 2) * 5000 + 1 * p.val = (i 0).val
        omega
      | ⟨1, _⟩ =>
        show win1_2.index t (1 : Fin 2) * 128 + 1 * k.val = k.val
        omega
    exact hX
  · -- whole weight matrix
    funext z
    show V c main_arg4 (((cfg1.win 3).blk t).view.emb z) = V c main_arg4 z
    refine congrArg (V c main_arg4) (funext fun a => Fin.ext ?_)
    match a with
    | ⟨0, _⟩ =>
      show win1_3.index t (0 : Fin 2) * 128 + 1 * (z 0).val = (z 0).val
      omega
    | ⟨1, _⟩ =>
      show win1_3.index t (1 : Fin 2) * 256 + 1 * (z 1).val = (z 1).val
      omega
  · -- the bias row
    show V c main_v25 (((cfg1.win 4).blk t).view.emb (ix2 (0 : Fin 1) j')) = V c main_v25 (ix2 (0 : Fin 1) j')
    refine congrArg (V c main_v25) (funext fun a => Fin.ext ?_)
    match a with
    | ⟨0, _⟩ =>
      show win1_4.index t (0 : Fin 2) * 1 + 1 * 0 = 0
      omega
    | ⟨1, _⟩ =>
      show win1_4.index t (1 : Fin 2) * 256 + 1 * j'.val = j'.val
      omega
  · -- whole weight matrix
    funext z
    show V c main_arg6 (((cfg1.win 5).blk t).view.emb z) = V c main_arg6 z
    refine congrArg (V c main_arg6) (funext fun a => Fin.ext ?_)
    match a with
    | ⟨0, _⟩ =>
      show win1_5.index t (0 : Fin 2) * 128 + 1 * (z 0).val = (z 0).val
      omega
    | ⟨1, _⟩ =>
      show win1_5.index t (1 : Fin 2) * 256 + 1 * (z 1).val = (z 1).val
      omega

/-- What point `t` writes back to the first output is block `t` of layer 1's output. -/
theorem flushed1_8 (c : Dev nD) (t : Fin cfg1.N) :
    (dat1 V c).flushed 8 t = ((cfg1.win 8).blk t).view.read (Elt Ideal) (hid1 (V c main_v24) (V c main_v12) (V c main_arg0) (V c main_arg4) (V c main_v25) (V c main_arg6)) := by
  show (cfg1.win 8).cut (grid1.coords t) ((dat1 V c).after 8 t) = _
  rw [after1_8]
  unfold out1_8
  rw [View.canon_unit_zero hz]
  simp only [View.ld_unit_zero (S := S5000x128) hz, View.ld_unit_zero (S := S5000x1) hz, View.ld_unit_zero (S := S128x256) hz,
    View.ld_unit_zero (S := S1x256) hz]
  obtain ⟨e0_0, e0_1, e1_0, e1_1, e2_0, e2_1, e3_0, e3_1, e4_0, e4_1, e5_0, e5_1, e6_0, e6_1, e7_0, e7_1, e8_0, e8_1, e9_0, e9_1⟩ := idx_facts1 t
  funext j
  obtain ⟨p, q, rfl⟩ : ∃ (p : Fin 5000) (q : Fin 256), j = ix2 p q := ⟨j 0, j 1, eq_ix2 j⟩
  show k1_pay1 (F := Ideal) (iblk1 V c 0 t) (iblk1 V c 1 t) (iblk1 V c 3 t) (iblk1 V c 4 t) (iblk1 V c 2 t) (iblk1 V c 5 t) (ix2 p q)
      = hid1 (V c main_v24) (V c main_v12) (V c main_arg0) (V c main_arg4) (V c main_v25) (V c main_arg6) (((cfg1.win 8).blk t).view.emb (ix2 p q))
  refine (hid_row _ _ _ _ _ _ p q).trans ?_
  refine hid_block V c t p q _ ?_ ?_
  · show win1_8.index t (0 : Fin 2) * 5000 + 1 * p.val = t.val * 5000 + p.val
    omega
  · show win1_8.index t (1 : Fin 2) * 256 + 1 * q.val = q.val
    omega

/-- What point `t` writes back to the second output is block `t` of layer 2's projected features. -/
theorem flushed1_9 (c : Dev nD) (t : Fin cfg1.N) :
    (dat1 V c).flushed 9 t = ((cfg1.win 9).blk t).view.read (Elt Ideal)
      (hidproj1 (V c main_v24) (V c main_v12) (V c main_arg0) (V c main_arg4) (V c main_v25) (V c main_arg6) (V c main_arg7) (V c main_v26)) := by
  show (cfg1.win 9).cut (grid1.coords t) ((dat1 V c).after 9 t) = _
  rw [after1_9]
  unfold out1_9
  rw [View.canon_unit_zero hz]
  simp only [View.ld_unit_zero (S := S5000x128) hz, View.ld_unit_zero (S := S5000x1) hz, View.ld_unit_zero (S := S128x256) hz,
    View.ld_unit_zero (S := S1x256) hz, View.ld_unit_zero (S := S256x256) hz]
  obtain ⟨e0_0, e0_1, e1_0, e1_1, e2_0, e2_1, e3_0, e3_1, e4_0, e4_1, e5_0, e5_1, e6_0, e6_1, e7_0, e7_1, e8_0, e8_1, e9_0, e9_1⟩ := idx_facts1 t
  funext j
  obtain ⟨p, q, rfl⟩ : ∃ (p : Fin 5000) (q : Fin 256), j = ix2 p q := ⟨j 0, j 1, eq_ix2 j⟩
  show k1_pay2 (F := Ideal) (iblk1 V c 0 t) (iblk1 V c 1 t) (iblk1 V c 3 t) (iblk1 V c 4 t) (iblk1 V c 2 t) (iblk1 V c 5 t) (iblk1 V c 6 t) (iblk1 V c 7 t) (ix2 p q)
      = hidproj1 (V c main_v24) (V c main_v12) (V c main_arg0) (V c main_arg4) (V c main_v25) (V c main_arg6) (V c main_arg7) (V c main_v26) (((cfg1.win 9).blk t).view.emb (ix2 p q))
  refine (hidproj_row _ _ _ _ _ _ _ _ p q).trans ?_
  unfold hidproj1
  refine projRow_congr (fun k => ?_) ?_ (fun j' => ?_) ?_
  · -- layer 1's output row of the same node
    refine hid_block V c t p k _ ?_ rfl
    show win1_9.index t (0 : Fin 2) * 5000 + 1 * p.val = t.val * 5000 + p.val
    omega
  · -- whole weight matrix
    funext z
    show V c main_arg7 (((cfg1.win 6).blk t).view.emb z) = V c main_arg7 z
    refine congrArg (V c main_arg7) (funext fun a => Fin.ext ?_)
    match a with
    | ⟨0, _⟩ =>
      show win1_6.index t (0 : Fin 2) * 256 + 1 * (z 0).val = (z 0).val
      omega
    | ⟨1, _⟩ =>
      show win1_6.index t (1 : Fin 2) * 256 + 1 * (z 1).val = (z 1).val
      omega
  · -- the bias row
    show V c main_v26 (((cfg1.win 7).blk t).view.emb (ix2 (0 : Fin 1) j')) = V c main_v26 (ix2 (0 : Fin 1) j')
    refine congrArg (V c main_v26) (funext fun a => Fin.ext ?_)
    match a with
    | ⟨0, _⟩ =>
      show win1_7.index t (0 : Fin 2) * 1 + 1 * 0 = 0
      omega
    | ⟨1, _⟩ =>
      show win1_7.index t (1 : Fin 2) * 256 + 1 * j'.val = j'.val
      omega
  · apply Fin.ext
    show q.val = win1_9.index t (1 : Fin 2) * 256 + 1 * q.val
    omega

/-- An index of the output array lies in point `t`'s block iff each coordinate lies in the block's range. -/
theorem mem_blk1_8 (t : Fin cfg1.N) (i : S50000x256.Idx) :
    i ∈ ((cfg1.win 8).blk t).view.set ↔ ∀ a : Fin 2, win1_8.index t a * S5000x256.size a ≤ (i a).val
      ∧ (i a).val < win1_8.index t a * S5000x256.size a + S5000x256.size a := by
  show i ∈ ((View.whole main_v27_0).slice (win1_8.rect t)).set ↔ _
  rw [View.set_slice_whole, Rect.mem_set_unit]
  exact Iff.rfl

/-- Row `r` of the output lies in the block of the point `r / 5000`: the ten blocks tile the array. -/
theorem cover1_8 (i : S50000x256.Idx) :
    ∃ t : Fin cfg1.N, (cfg1.win 8).flush t = true ∧ i ∈ ((cfg1.win 8).blk t).view.set := by
  have hi0 : (i 0).val < 50000 := (i 0).isLt
  have hi1 : (i 1).val < 256 := (i 1).isLt
  have hN : grid1.N = 10 := N_1
  have ht : (i 0).val / 5000 < grid1.N := by omega
  obtain ⟨e0_0, e0_1, e1_0, e1_1, e2_0, e2_1, e3_0, e3_1, e4_0, e4_1, e5_0, e5_1, e6_0, e6_1, e7_0, e7_1, e8_0, e8_1, e9_0, e9_1⟩ := idx_facts1 ⟨(i 0).val / 5000, ht⟩
  have f0 : win1_8.index ⟨(i 0).val / 5000, ht⟩ (0 : Fin 2) = (i 0).val / 5000 := e8_0
  have f1 : win1_8.index ⟨(i 0).val / 5000, ht⟩ (1 : Fin 2) = 0 := e8_1
  refine ⟨⟨(i 0).val / 5000, ht⟩, flush1_8 _, ?_⟩
  rw [mem_blk1_8]
  intro a
  match a with
  | ⟨0, _⟩ =>
    show win1_8.index ⟨(i 0).val / 5000, ht⟩ (0 : Fin 2) * 5000 ≤ (i 0).val
      ∧ (i 0).val < win1_8.index ⟨(i 0).val / 5000, ht⟩ (0 : Fin 2) * 5000 + 5000
    omega
  | ⟨1, _⟩ =>
    show win1_8.index ⟨(i 0).val / 5000, ht⟩ (1 : Fin 2) * 256 ≤ (i 1).val
      ∧ (i 1).val < win1_8.index ⟨(i 0).val / 5000, ht⟩ (1 : Fin 2) * 256 + 256
    omega

/-- An index of the output array lies in point `t`'s block iff each coordinate lies in the block's range. -/
theorem mem_blk1_9 (t : Fin cfg1.N) (i : S50000x256.Idx) :
    i ∈ ((cfg1.win 9).blk t).view.set ↔ ∀ a : Fin 2, win1_9.index t a * S5000x256.size a ≤ (i a).val
      ∧ (i a).val < win1_9.index t a * S5000x256.size a + S5000x256.size a := by
  show i ∈ ((View.whole main_v27_1).slice (win1_9.rect t)).set ↔ _
  rw [View.set_slice_whole, Rect.mem_set_unit]
  exact Iff.rfl

/-- Row `r` of the output lies in the block of the point `r / 5000`: the ten blocks tile the array. -/
theorem cover1_9 (i : S50000x256.Idx) :
    ∃ t : Fin cfg1.N, (cfg1.win 9).flush t = true ∧ i ∈ ((cfg1.win 9).blk t).view.set := by
  have hi0 : (i 0).val < 50000 := (i 0).isLt
  have hi1 : (i 1).val < 256 := (i 1).isLt
  have hN : grid1.N = 10 := N_1
  have ht : (i 0).val / 5000 < grid1.N := by omega
  obtain ⟨e0_0, e0_1, e1_0, e1_1, e2_0, e2_1, e3_0, e3_1, e4_0, e4_1, e5_0, e5_1, e6_0, e6_1, e7_0, e7_1, e8_0, e8_1, e9_0, e9_1⟩ := idx_facts1 ⟨(i 0).val / 5000, ht⟩
  have f0 : win1_9.index ⟨(i 0).val / 5000, ht⟩ (0 : Fin 2) = (i 0).val / 5000 := e9_0
  have f1 : win1_9.index ⟨(i 0).val / 5000, ht⟩ (1 : Fin 2) = 0 := e9_1
  refine ⟨⟨(i 0).val / 5000, ht⟩, flush1_9 _, ?_⟩
  rw [mem_blk1_9]
  intro a
  match a with
  | ⟨0, _⟩ =>
    show win1_9.index ⟨(i 0).val / 5000, ht⟩ (0 : Fin 2) * 5000 ≤ (i 0).val
      ∧ (i 0).val < win1_9.index ⟨(i 0).val / 5000, ht⟩ (0 : Fin 2) * 5000 + 5000
    omega
  | ⟨1, _⟩ =>
    show win1_9.index ⟨(i 0).val / 5000, ht⟩ (1 : Fin 2) * 256 ≤ (i 1).val
      ∧ (i 1).val < win1_9.index ⟨(i 0).val / 5000, ht⟩ (1 : Fin 2) * 256 + 256
    omega

/-- After the region the first output array is layer 1's output of the arrays the region found. -/
theorem final1_8 (c : Dev nD) : (dat1 V c).arrAt 8 cfg1.N = hid1 (V c main_v24) (V c main_v12) (V c main_arg0) (V c main_arg4) (V c main_v25) (V c main_arg6) :=
  (dat1 V c).arrAt_eq_of_cover 8 _ (fun t _ => flushed1_8 V c t) cover1_8

/-- After the region the second output array is layer 2's projected features of the arrays the region found. -/
theorem final1_9 (c : Dev nD) :
    (dat1 V c).arrAt 9 cfg1.N = hidproj1 (V c main_v24) (V c main_v12) (V c main_arg0) (V c main_arg4) (V c main_v25) (V c main_arg6) (V c main_arg7) (V c main_v26) :=
  (dat1 V c).arrAt_eq_of_cover 9 _ (fun t _ => flushed1_9 V c t) cover1_9

end Cert.KernelIdeal.Blocks

end
-- ==== Proof.Blocks2.lean ====
/-
  The third region's output array: the result, of every node.

  Point `t` reads rows `5000·t …` of layer 2's neighbourhood sums, of the reciprocal-count column and of layer 1's
  output, and whole weight and bias blocks; it writes back rows `5000·t …` of the result. Row `p` of what it
  writes is the row formula of node `5000·t + p`: the combination (the sum times the reciprocal count through
  `wl`, plus `bl`, plus layer 1's output through `wr`), divided by its Euclidean norm clamped below at ε,
  positive part. The blocks tile the rows, so the result array is one function of the arrays the region finds.
-/
import proofs.«101149_j6871947673826_2_alg».proof.Proof.Gen.KernelIdeal.Frame
import proofs.«101149_j6871947673826_2_alg».proof.Proof.Spec
import proofs.«101149_j6871947673826_2_alg».proof.Proof.KernelRows
import proofs.«101149_j6871947673826_2_alg».proof.Proof.Blocks0
import Idealize.ShloMosaic.Lib.Pipeline.Value

set_option maxRecDepth 16384

noncomputable section

namespace Cert.KernelIdeal.Blocks

open Cert.KernelIdeal Cert.KernelIdeal.Gen Cert.KernelIdeal.Rows Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The result as one function of layer 2's neighbourhood sums, the reciprocal-count column, layer 1's output, the
    two weight matrices and the [1, 128] bias row. -/
def out2 (S2 : S50000x256.Idx → EReal) (IC : S50000x1.Idx → EReal) (H : S50000x256.Idx → EReal)
    (WL : S256x128.Idx → EReal) (BL : S1x128.Idx → EReal) (WR : S256x128.Idx → EReal) : S50000x128.Idx → EReal :=
  fun i => normRow (fun l : Fin 128 => combRow (fun k : Fin 256 => S2 (ix2 (i 0) k) * IC (ix2 (i 0) (0 : Fin 1)))
    (fun k : Fin 256 => H (ix2 (i 0) k)) WL (fun j : Fin 128 => BL (ix2 (0 : Fin 1) j)) WR l) (i 1)

/-- The index maps over the grid: the three row-blocked inputs and the output move down the rows with the point, the
    weights and the bias stay. -/
theorem idx_facts2 : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0 :=
  (by decide +kernel : ∀ t : Fin grid2.N, _)

/-- What point `t` writes back is block `t` of the result. -/
theorem flushed2 (c : Dev nD) (t : Fin cfg2.N) :
    (dat2 V c).flushed 6 t = ((cfg2.win 6).blk t).view.read (Elt Ideal) (out2 (V c main_v37) (V c main_v12) (V c main_v27_0) (V c main_arg9) (V c main_v38) (V c main_arg11)) := by
  show (cfg2.win 6).cut (grid2.coords t) ((dat2 V c).after 6 t) = _
  rw [after2_6]
  unfold out2_6
  rw [View.canon_unit_zero hz]
  simp only [View.ld_unit_zero (S := S5000x256) hz, View.ld_unit_zero (S := S5000x1) hz, View.ld_unit_zero (S := S256x128) hz,
    View.ld_unit_zero (S := S1x128) hz]
  obtain ⟨e0_0, e0_1, e1_0, e1_1, e2_0, e2_1, e3_0, e3_1, e4_0, e4_1, e5_0, e5_1, e6_0, e6_1⟩ := idx_facts2 t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (iblk2 V c 3 t) (iblk2 V c 4 t) (iblk2 V c 2 t) (iblk2 V c 5 t) (ix2 p q)
      = out2 (V c main_v37) (V c main_v12) (V c main_v27_0) (V c main_arg9) (V c main_v38) (V c main_arg11) (((cfg2.win 6).blk t).view.emb (ix2 p q))
  refine (out_row _ _ _ _ _ _ p q).trans ?_
  unfold out2
  -- the row of the array under the block's row `p`
  generalize hi : ((cfg2.win 6).blk t).view.emb (ix2 p q) = i
  have hi0 : (i 0).val = t.val * 5000 + p.val := by
    rw [← hi]
    show win2_6.index t (0 : Fin 2) * 5000 + 1 * p.val = t.val * 5000 + p.val
    omega
  have hi1 : (i 1).val = q.val := by
    rw [← hi]
    show win2_6.index t (1 : Fin 2) * 128 + 1 * q.val = q.val
    omega
  refine normRow_congr (fun l => combRow_congr (fun k => ?_) (fun k => ?_) ?_ (fun j' => ?_) ?_ rfl) (Fin.ext hi1.symm)
  · -- the neighbourhood sum and the reciprocal count of the row
    have hS : iblk2 V c 0 t (ix2 p k) = V c main_v37 (ix2 (i 0) k) := by
      show V c main_v37 (((cfg2.win 0).blk t).view.emb (ix2 p k)) = V c main_v37 (ix2 (i 0) k)
      refine congrArg (V c main_v37) (funext fun a => Fin.ext ?_)
      match a with
      | ⟨0, _⟩ =>
        show win2_0.index t (0 : Fin 2) * 5000 + 1 * p.val = (i 0).val
        omega
      | ⟨1, _⟩ =>
        show win2_0.index t (1 : Fin 2) * 256 + 1 * k.val = k.val
        omega
    have hI : iblk2 V c 1 t (ix2 p (0 : Fin 1)) = V c main_v12 (ix2 (i 0) (0 : Fin 1)) := by
      show V c main_v12 (((cfg2.win 1).blk t).view.emb (ix2 p (0 : Fin 1))) = V c main_v12 (ix2 (i 0) (0 : Fin 1))
      refine congrArg (V c main_v12) (funext fun a => Fin.ext ?_)
      match a with
      | ⟨0, _⟩ =>
        show win2_1.index t (0 : Fin 2) * 5000 + 1 * p.val = (i 0).val
        omega
      | ⟨1, _⟩ =>
        show win2_1.index t (1 : Fin 2) * 1 + 1 * 0 = 0
        omega
    exact congrArg₂ (fun u v : EReal => u * v) hS hI
  · -- layer 1's output row
    have hX : iblk2 V c 2 t (ix2 p k) = V c main_v27_0 (ix2 (i 0) k) := by
      show V c main_v27_0 (((cfg2.win 2).blk t).view.emb (ix2 p k)) = V c main_v27_0 (ix2 (i 0) k)
      refine congrArg (V c main_v27_0) (funext fun a => Fin.ext ?_)
      match a with
      | ⟨0, _⟩ =>
        show win2_2.index t (0 : Fin 2) * 5000 + 1 * p.val = (i 0).val
        omega
      | ⟨1, _⟩ =>
        show win2_2.index t (1 : Fin 2) * 256 + 1 * k.val = k.val
        omega
    exact hX
  · -- whole weight matrix
    funext z
    show V c main_arg9 (((cfg2.win 3).blk t).view.emb z) = V c main_arg9 z
    refine congrArg (V c main_arg9) (funext fun a => Fin.ext ?_)
    match a with
    | ⟨0, _⟩ =>
      show win2_3.index t (0 : Fin 2) * 256 + 1 * (z 0).val = (z 0).val
      omega
    | ⟨1, _⟩ =>
      show win2_3.index t (1 : Fin 2) * 128 + 1 * (z 1).val = (z 1).val
      omega
  · -- the bias row
    show V c main_v38 (((cfg2.win 4).blk t).view.emb (ix2 (0 : Fin 1) j')) = V c main_v38 (ix2 (0 : Fin 1) j')
    refine congrArg (V c main_v38) (funext fun a => Fin.ext ?_)
    match a with
    | ⟨0, _⟩ =>
      show win2_4.index t (0 : Fin 2) * 1 + 1 * 0 = 0
      omega
    | ⟨1, _⟩ =>
      show win2_4.index t (1 : Fin 2) * 128 + 1 * j'.val = j'.val
      omega
  · -- whole weight matrix
    funext z
    show V c main_arg11 (((cfg2.win 5).blk t).view.emb z) = V c main_arg11 z
    refine congrArg (V c main_arg11) (funext fun a => Fin.ext ?_)
    match a with
    | ⟨0, _⟩ =>
      show win2_5.index t (0 : Fin 2) * 256 + 1 * (z 0).val = (z 0).val
      omega
    | ⟨1, _⟩ =>
      show win2_5.index t (1 : Fin 2) * 128 + 1 * (z 1).val = (z 1).val
      omega

/-- An index of the output array lies in point `t`'s block iff each coordinate lies in the block's range. -/
theorem mem_blk2 (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v39).slice (win2_6.rect t)).set ↔ _
  rw [View.set_slice_whole, Rect.mem_set_unit]
  exact Iff.rfl

/-- Row `r` of the output lies in the block of the point `r / 5000`: the ten blocks tile the array. -/
theorem cover2 (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : grid2.N = 10 := N_2
  have ht : (i 0).val / 5000 < grid2.N := by omega
  obtain ⟨e0_0, e0_1, e1_0, e1_1, e2_0, e2_1, e3_0, e3_1, e4_0, e4_1, e5_0, e5_1, e6_0, e6_1⟩ := idx_facts2 ⟨(i 0).val / 5000, ht⟩
  have f0 : win2_6.index ⟨(i 0).val / 5000, ht⟩ (0 : Fin 2) = (i 0).val / 5000 := e6_0
  have f1 : win2_6.index ⟨(i 0).val / 5000, ht⟩ (1 : Fin 2) = 0 := e6_1
  refine ⟨⟨(i 0).val / 5000, ht⟩, flush2_6 _, ?_⟩
  rw [mem_blk2]
  intro a
  match a with
  | ⟨0, _⟩ =>
    show win2_6.index ⟨(i 0).val / 5000, ht⟩ (0 : Fin 2) * 5000 ≤ (i 0).val
      ∧ (i 0).val < win2_6.index ⟨(i 0).val / 5000, ht⟩ (0 : Fin 2) * 5000 + 5000
    omega
  | ⟨1, _⟩ =>
    show win2_6.index ⟨(i 0).val / 5000, ht⟩ (1 : Fin 2) * 128 ≤ (i 1).val
      ∧ (i 1).val < win2_6.index ⟨(i 0).val / 5000, ht⟩ (1 : Fin 2) * 128 + 128
    omega

/-- After the region the result array is the result function of the arrays the region found. -/
theorem final2 (c : Dev nD) : (dat2 V c).arrAt 6 cfg2.N = out2 (V c main_v37) (V c main_v12) (V c main_v27_0) (V c main_arg9) (V c main_v38) (V c main_arg11) :=
  (dat2 V c).arrAt_eq_of_cover 6 _ (fun t _ => flushed2 V c t) cover2

end Cert.KernelIdeal.Blocks

end
-- ==== Proof.KernelFold.lean ====
/-
  The idealized kernel's returned array as one function of the twelve arguments.

  @main alternates host stretches and grid regions. Written as functions of the argument arrays:
    * the edge list gives the destination indices `dstIdx`, the (wrapped) source indices `srcIdx`, the
      neighbour counts `cnt` (ones scattered and added at the destinations) and their clamped reciprocals
      `recip`, a [50000, 1] column;
    * `agg128` / `agg256`: a feature array gathered at the sources and scatter-added at the destinations;
    * region 0 gives the projected features `kXP`; the host aggregates them (`kS1`); region 1 gives layer 1's
      output `kH` and layer 2's projected features `kHP`; the host aggregates those (`kS2`); region 2 gives
      the result `kOut`.
  The contents of every buffer at each segment boundary are the launch memory pushed through the segments
  before it; a stretch leaves the buffers it does not write, a region leaves every buffer but its output
  arrays and its input arrays end as they were.
-/
import proofs.«101149_j6871947673826_2_alg».proof.Proof.Gen.KernelIdeal.Frame
import proofs.«101149_j6871947673826_2_alg».proof.Proof.Spec
import proofs.«101149_j6871947673826_2_alg».proof.Proof.Blocks0
import proofs.«101149_j6871947673826_2_alg».proof.Proof.Blocks1
import proofs.«101149_j6871947673826_2_alg».proof.Proof.Blocks2
import Idealize.ShloMosaic.Lib.StableHlo.Run
import Idealize.ShloMosaic.Lib.Pipeline.Value

set_option maxRecDepth 16384

noncomputable section

namespace Cert.KernelIdeal.Fold

open Cert.KernelIdeal Cert.KernelIdeal.Gen Cert.KernelIdeal.Blocks Cert.Spec
open Idealize.ShloMosaic Idealize.ShloMosaic.TcCoe Idealize.ShloMosaic.StableHlo Idealize.ShloMosaic.ValueIdx Idealize.SL.Sem

/-! ## The host stretches' terms, as functions of the edge list -/

/-- Row 1 of the edge list: each edge's destination node. -/
def dst (e : (⟨S2x800000, .i32⟩ : BufTy).Contents (Elt Ideal)) : (⟨S800000, .i32⟩ : BufTy).Contents (Elt Ideal) :=
  shapeCast S800000 (extractStridedSlice S1x800000 ![1, 0] e slices_S2x800000_S1x800000_1_0) shapeCasts_S1x800000_S800000

/-- Row 0 of the edge list: each edge's source node. -/
def src (e : (⟨S2x800000, .i32⟩ : BufTy).Contents (Elt Ideal)) : (⟨S800000, .i32⟩ : BufTy).Contents (Elt Ideal) :=
  shapeCast S800000 (extractStridedSlice S1x800000 ![0, 0] e slices_S2x800000_S1x800000_0_0) shapeCasts_S1x800000_S800000

/-- The destinations as a column of scatter indices. -/
def dstIdx (e : (⟨S2x800000, .i32⟩ : BufTy).Contents (Elt Ideal)) : (⟨S800000x1, .i32⟩ : BufTy).Contents (Elt Ideal) :=
  broadcastInDim S800000x1 ![0] bcast_S800000_S800000x1_0 (dst e)

/-- The sources, a negative index wrapped by the node count, as a column of gather indices. -/
def srcIdx (e : (⟨S2x800000, .i32⟩ : BufTy).Contents (Elt Ideal)) : (⟨S800000x1, .i32⟩ : BufTy).Contents (Elt Ideal) :=
  broadcastInDim S800000x1 ![0] bcast_S800000_S800000x1_0
    (select (cmpi .slt (src e) (broadcastInDim S800000 ![] bcast_S_S800000 (constantI S_ 32 0#32)))
      (addi (src e) (broadcastInDim S800000 ![] bcast_S_S800000 (constantI S_ 32 50000#32))) (src e))

/-- The neighbour counts: a one per edge, added at its destination. -/
def cnt (e : (⟨S2x800000, .i32⟩ : BufTy).Contents (Elt Ideal)) : (⟨S50000, .f32⟩ : BufTy).Contents (Elt Ideal) :=
  Host.scatterAdd (F := Ideal) scatter_S50000_S800000x1_S800000_n_0_0_1
    (broadcastInDim S50000 ![] bcast_S_S50000 (constant (F := Ideal) S_ .f32 0x00000000#32)) (dstIdx e)
    (broadcastInDim S800000 ![] bcast_S_S800000 (constant (F := Ideal) S_ .f32 0x3F800000#32))

/-- The reciprocal of the count clamped below at one, a [50000, 1] column. -/
def recip (e : (⟨S2x800000, .i32⟩ : BufTy).Contents (Elt Ideal)) : (⟨S50000x1, .f32⟩ : BufTy).Contents (Elt Ideal) :=
  Host.divf (F := Ideal)
    (broadcastInDim S50000x1 ![] bcast_S_S50000x1 (constant (F := Ideal) S_ .f32 0x3F800000#32))
    (maximumf (shapeCast S50000x1 (cnt e) shapeCasts_S50000_S50000x1)
      (broadcastInDim S50000x1 ![] bcast_S_S50000x1 (constant (F := Ideal) S_ .f32 0x3F800000#32)))

/-- Neighbourhood sums of a [50000, 128] feature array: gathered at the sources, added at the destinations. -/
def agg128 (e : (⟨S2x800000, .i32⟩ : BufTy).Contents (Elt Ideal)) (x : (⟨S50000x128, .f32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32)) (dstIdx e)
    (Host.gather gather_S50000x128_S800000x1_S800000x128_1_0_n_n_0_1_1128 x (srcIdx e))

/-- Neighbourhood sums of a [50000, 256] feature array. -/
def agg256 (e : (⟨S2x800000, .i32⟩ : BufTy).Contents (Elt Ideal)) (x : (⟨S50000x256, .f32⟩ : BufTy).Contents (Elt Ideal)) :
    (⟨S50000x256, .f32⟩ : BufTy).Contents (Elt Ideal) :=
  Host.scatterAdd (F := Ideal) scatter_S50000x256_S800000x1_S800000x256_1_0_0_1
    (broadcastInDim S50000x256 ![] bcast_S_S50000x256 (constant (F := Ideal) S_ .f32 0x00000000#32)) (dstIdx e)
    (Host.gather gather_S50000x256_S800000x1_S800000x256_1_0_n_n_0_1_1256 x (srcIdx e))

/-! ## What each host stretch writes, and what it leaves -/

/-- The buffers the first host stretch writes. -/
abbrev hostOps0_W : List (Ref sig .tc) :=
  [main_v0, main_v1, main_v2, main_v3, main_cst, main_v4, main_cst_0, main_v5, main_v6, main_v7, main_v8, main_cst_1,
    main_v9, main_v10, main_cst_2, main_v11, main_v12, main_v13]
/-- The buffers the second host stretch writes. -/
abbrev hostOps1_W : List (Ref sig .tc) :=
  [main_c, main_v15, main_v16, main_c_3, main_v17, main_v18, main_v19, main_v20, main_v21, main_cst_4, main_v22, main_v23,
    main_v24, main_v25, main_v26]
/-- The buffers the third host stretch writes. -/
abbrev hostOps2_W : List (Ref sig .tc) :=
  [main_c_5, main_v28, main_v29, main_c_6, main_v30, main_v31, main_v32, main_v33, main_v34, main_cst_7, main_v35, main_v36,
    main_v37, main_v38]

theorem hostOps0_writes : (hostOps0 (F := Ideal)).Forall fun op =>
    op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
theorem hostOps1_writes : (hostOps1 (F := Ideal)).Forall fun op =>
    op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
theorem hostOps2_writes : (hostOps2 (F := Ideal)).Forall fun op =>
    op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

section Host
variable (U : Valuation τ sig (Elt Ideal))

/-- A buffer a stretch does not write keeps its contents. -/
theorem keeps0 (r : Ref sig .tc) (h : r ∉ hostOps0_W) :
    StableHlo.after (hostOps0 (F := Ideal)) U (Proc.devRef .tc r) = U (Proc.devRef .tc r) :=
  StableHlo.after_of_writes_sub hostOps0 U hostOps0_writes h
theorem keeps1 (r : Ref sig .tc) (h : r ∉ hostOps1_W) :
    StableHlo.after (hostOps1 (F := Ideal)) U (Proc.devRef .tc r) = U (Proc.devRef .tc r) :=
  StableHlo.after_of_writes_sub hostOps1 U hostOps1_writes h
theorem keeps2 (r : Ref sig .tc) (h : r ∉ hostOps2_W) :
    StableHlo.after (hostOps2 (F := Ideal)) U (Proc.devRef .tc r) = U (Proc.devRef .tc r) :=
  StableHlo.after_of_writes_sub hostOps2 U hostOps2_writes h

/-- The first stretch's results the regions and the later stretches read, as functions of the edge list and a bias. -/
theorem read0_v1 : StableHlo.after (hostOps0 (F := Ideal)) U (Proc.devRef .tc main_v1) = src (U (Proc.devRef .tc main_arg1)) := by
  after_results
  rfl
theorem read0_v3 : StableHlo.after (hostOps0 (F := Ideal)) U (Proc.devRef .tc main_v3) = dst (U (Proc.devRef .tc main_arg1)) := by
  after_results
  rfl
theorem read0_v12 : StableHlo.after (hostOps0 (F := Ideal)) U (Proc.devRef .tc main_v12) = recip (U (Proc.devRef .tc main_arg1)) := by
  after_results
  rfl
theorem read0_v13 : StableHlo.after (hostOps0 (F := Ideal)) U (Proc.devRef .tc main_v13)
    = shapeCast S1x128 (U (Proc.devRef .tc main_arg3)) shapeCasts_S128_S1x128 := by
  after_results
  rfl

/-- The second stretch: the neighbourhood sums of region 0's output, and the two bias rows. -/
theorem read1_v24 (e : (⟨S2x800000, .i32⟩ : BufTy).Contents (Elt Ideal)) (x : (⟨S50000x128, .f32⟩ : BufTy).Contents (Elt Ideal))
    (h3 : U (Proc.devRef .tc main_v3) = dst e) (h1 : U (Proc.devRef .tc main_v1) = src e) (hx : U (Proc.devRef .tc main_v14) = x) :
    StableHlo.after (hostOps1 (F := Ideal)) U (Proc.devRef .tc main_v24) = agg128 e x := by
  after_results
  rw [h3, h1, hx]
  rfl
theorem read1_v25 : StableHlo.after (hostOps1 (F := Ideal)) U (Proc.devRef .tc main_v25)
    = shapeCast S1x256 (U (Proc.devRef .tc main_arg5)) shapeCasts_S256_S1x256 := by
  after_results
  rfl
theorem read1_v26 : StableHlo.after (hostOps1 (F := Ideal)) U (Proc.devRef .tc main_v26)
    = shapeCast S1x256 (U (Proc.devRef .tc main_arg8)) shapeCasts_S256_S1x256 := by
  after_results
  rfl

/-- The third stretch: the neighbourhood sums of region 1's second output, and the last bias row. -/
theorem read2_v37 (e : (⟨S2x800000, .i32⟩ : BufTy).Contents (Elt Ideal)) (x : (⟨S50000x256, .f32⟩ : BufTy).Contents (Elt Ideal))
    (h3 : U (Proc.devRef .tc main_v3) = dst e) (h1 : U (Proc.devRef .tc main_v1) = src e) (hx : U (Proc.devRef .tc main_v27_1) = x) :
    StableHlo.after (hostOps2 (F := Ideal)) U (Proc.devRef .tc main_v37) = agg256 e x := by
  after_results
  rw [h3, h1, hx]
  rfl
theorem read2_v38 : StableHlo.after (hostOps2 (F := Ideal)) U (Proc.devRef .tc main_v38)
    = shapeCast S1x128 (U (Proc.devRef .tc main_arg10)) shapeCasts_S128_S1x128 := by
  after_results
  rfl

end Host

/-! ## The stages, as functions of the arguments -/

variable (a0 : (⟨S50000x128, .f32⟩ : BufTy).Contents (Elt Ideal)) (a1 : (⟨S2x800000, .i32⟩ : BufTy).Contents (Elt Ideal))
  (a2 : (⟨S128x128, .f32⟩ : BufTy).Contents (Elt Ideal)) (a3 : (⟨S128, .f32⟩ : BufTy).Contents (Elt Ideal))
  (a4 : (⟨S128x256, .f32⟩ : BufTy).Contents (Elt Ideal)) (a5 : (⟨S256, .f32⟩ : BufTy).Contents (Elt Ideal))
  (a6 : (⟨S128x256, .f32⟩ : BufTy).Contents (Elt Ideal)) (a7 : (⟨S256x256, .f32⟩ : BufTy).Contents (Elt Ideal))
  (a8 : (⟨S256, .f32⟩ : BufTy).Contents (Elt Ideal)) (a9 : (⟨S256x128, .f32⟩ : BufTy).Contents (Elt Ideal))
  (a10 : (⟨S128, .f32⟩ : BufTy).Contents (Elt Ideal)) (a11 : (⟨S256x128, .f32⟩ : BufTy).Contents (Elt Ideal))

/-- Layer 1's projected features. -/
def kXP : (⟨S50000x128, .f32⟩ : BufTy).Contents (Elt Ideal) := proj1 a0 a2 (shapeCast S1x128 a3 shapeCasts_S128_S1x128)
/-- Their neighbourhood sums. -/
def kS1 : (⟨S50000x128, .f32⟩ : BufTy).Contents (Elt Ideal) := agg128 a1 (kXP a0 a2 a3)
/-- Layer 1's output. -/
def kH : (⟨S50000x256, .f32⟩ : BufTy).Contents (Elt Ideal) :=
  hid1 (kS1 a0 a1 a2 a3) (recip a1) a0 a4 (shapeCast S1x256 a5 shapeCasts_S256_S1x256) a6
/-- Layer 2's projected features. -/
def kHP : (⟨S50000x256, .f32⟩ : BufTy).Contents (Elt Ideal) :=
  hidproj1 (kS1 a0 a1 a2 a3) (recip a1) a0 a4 (shapeCast S1x256 a5 shapeCasts_S256_S1x256) a6 a7 (shapeCast S1x256 a8 shapeCasts_S256_S1x256)
/-- Their neighbourhood sums. -/
def kS2 : (⟨S50000x256, .f32⟩ : BufTy).Contents (Elt Ideal) := agg256 a1 (kHP a0 a1 a2 a3 a4 a5 a6 a7 a8)
/-- The result. -/
def kOut : (⟨S50000x128, .f32⟩ : BufTy).Contents (Elt Ideal) :=
  out2 (kS2 a0 a1 a2 a3 a4 a5 a6 a7 a8) (recip a1) (kH a0 a1 a2 a3 a4 a5 a6) a9 (shapeCast S1x128 a10 shapeCasts_S128_S1x128) a11

/-! ## The returned array -/

variable (m : (ℓ : Loc nD τ sig) → Buf (Elt Ideal) ℓ) (ρ : Dev nD → PrngReg)

/-! ## The fold, buffer by buffer

  For one core `c`: the contents of each buffer a later segment reads, at the boundary where it is read, as a
  function of the launch contents of the arguments. -/

/-- Equal operands give equal stage functions. -/
theorem proj1_congr {X X' : S50000x128.Idx → EReal} {Wt Wt' : S128x128.Idx → EReal} {B B' : S1x128.Idx → EReal}
    (hX : X = X') (hW : Wt = Wt') (hB : B = B') : proj1 X Wt B = proj1 X' Wt' B' := by
  subst hX hW hB; rfl
theorem hid1_congr {S S' : S50000x128.Idx → EReal} {IC IC' : S50000x1.Idx → EReal} {X X' : S50000x128.Idx → EReal}
    {WL WL' : S128x256.Idx → EReal} {BL BL' : S1x256.Idx → EReal} {WR WR' : S128x256.Idx → EReal}
    (hS : S = S') (hIC : IC = IC') (hX : X = X') (hWL : WL = WL') (hBL : BL = BL') (hWR : WR = WR') :
    hid1 S IC X WL BL WR = hid1 S' IC' X' WL' BL' WR' := by
  subst hS hIC hX hWL hBL hWR; rfl
theorem hidproj1_congr {S S' : S50000x128.Idx → EReal} {IC IC' : S50000x1.Idx → EReal} {X X' : S50000x128.Idx → EReal}
    {WL WL' : S128x256.Idx → EReal} {BL BL' : S1x256.Idx → EReal} {WR WR' : S128x256.Idx → EReal}
    {W2 W2' : S256x256.Idx → EReal} {B2 B2' : S1x256.Idx → EReal}
    (hS : S = S') (hIC : IC = IC') (hX : X = X') (hWL : WL = WL') (hBL : BL = BL') (hWR : WR = WR')
    (hW2 : W2 = W2') (hB2 : B2 = B2') :
    hidproj1 S IC X WL BL WR W2 B2 = hidproj1 S' IC' X' WL' BL' WR' W2' B2' := by
  subst hS hIC hX hWL hBL hWR hW2 hB2; rfl
theorem out2_congr {S S' : S50000x256.Idx → EReal} {IC IC' : S50000x1.Idx → EReal} {H H' : S50000x256.Idx → EReal}
    {WL WL' : S256x128.Idx → EReal} {BL BL' : S1x128.Idx → EReal} {WR WR' : S256x128.Idx → EReal}
    (hS : S = S') (hIC : IC = IC') (hH : H = H') (hWL : WL = WL') (hBL : BL = BL') (hWR : WR = WR') :
    out2 S IC H WL BL WR = out2 S' IC' H' WL' BL' WR' := by
  subst hS hIC hH hWL hBL hWR; rfl

section Stages
variable (c : Dev nD)

/-! ### A buffer no segment so far has written holds its launch contents -/

theorem keep1 (r : Ref sig .tc) (h0 : r ∉ hostOps0_W) : W1 m ρ c (Proc.devRef .tc r) = W0 m ρ c (Proc.devRef .tc r) :=
  keeps0 _ r h0
theorem keep2 (r : Ref sig .tc) (h0 : r ∉ hostOps0_W) (hs0 : ∀ w, Pipeline.arrRef spec0 w ≠ r) :
    W2 m ρ c (Proc.devRef .tc r) = W0 m ρ c (Proc.devRef .tc r) :=
  (W2_of_ne m ρ c r hs0).trans (keep1 m ρ c r h0)
theorem keep3 (r : Ref sig .tc) (h0 : r ∉ hostOps0_W) (hs0 : ∀ w, Pipeline.arrRef spec0 w ≠ r) (h1 : r ∉ hostOps1_W) :
    W3 m ρ c (Proc.devRef .tc r) = W0 m ρ c (Proc.devRef .tc r) :=
  (keeps1 _ r h1).trans (keep2 m ρ c r h0 hs0)
theorem keep4 (r : Ref sig .tc) (h0 : r ∉ hostOps0_W) (hs0 : ∀ w, Pipeline.arrRef spec0 w ≠ r) (h1 : r ∉ hostOps1_W)
    (hs1 : ∀ w, Pipeline.arrRef spec1 w ≠ r) : W4 m ρ c (Proc.devRef .tc r) = W0 m ρ c (Proc.devRef .tc r) :=
  (W4_of_ne m ρ c r hs1).trans (keep3 m ρ c r h0 hs0 h1)
theorem keep5 (r : Ref sig .tc) (h0 : r ∉ hostOps0_W) (hs0 : ∀ w, Pipeline.arrRef spec0 w ≠ r) (h1 : r ∉ hostOps1_W)
    (hs1 : ∀ w, Pipeline.arrRef spec1 w ≠ r) (h2 : r ∉ hostOps2_W) : W5 m ρ c (Proc.devRef .tc r) = W0 m ρ c (Proc.devRef .tc r) :=
  (keeps2 _ r h2).trans (keep4 m ρ c r h0 hs0 h1 hs1)

/-! ### At region 0's entry -/

theorem arg0_1 : W1 m ρ c (Proc.devRef .tc main_arg0) = (m ((c : Thread nD τ).loc main_arg0)) := keep1 m ρ c main_arg0 (by decide)
theorem arg2_1 : W1 m ρ c (Proc.devRef .tc main_arg2) = (m ((c : Thread nD τ).loc main_arg2)) := keep1 m ρ c main_arg2 (by decide)
theorem v13_1 : W1 m ρ c (Proc.devRef .tc main_v13) = shapeCast S1x128 (m ((c : Thread nD τ).loc main_arg3)) shapeCasts_S128_S1x128 := read0_v13 _
theorem v1_1 : W1 m ρ c (Proc.devRef .tc main_v1) = src (m ((c : Thread nD τ).loc main_arg1)) := read0_v1 _
theorem v3_1 : W1 m ρ c (Proc.devRef .tc main_v3) = dst (m ((c : Thread nD τ).loc main_arg1)) := read0_v3 _
theorem v12_1 : W1 m ρ c (Proc.devRef .tc main_v12) = recip (m ((c : Thread nD τ).loc main_arg1)) := read0_v12 _

/-! ### At region 0's exit -/

/-- Region 0's output: layer 1's projected features. -/
theorem v14_2 : W2 m ρ c (Proc.devRef .tc main_v14) = kXP (m ((c : Thread nD τ).loc main_arg0)) (m ((c : Thread nD τ).loc main_arg2)) (m ((c : Thread nD τ).loc main_arg3)) :=
  (W2_arr m ρ c 3).trans ((final0 (V1 m ρ) c).trans (proj1_congr (arg0_1 m ρ c) (arg2_1 m ρ c) (v13_1 m ρ c)))
theorem v1_2 : W2 m ρ c (Proc.devRef .tc main_v1) = src (m ((c : Thread nD τ).loc main_arg1)) := (W2_of_ne m ρ c main_v1 (by decide)).trans (v1_1 m ρ c)
theorem v3_2 : W2 m ρ c (Proc.devRef .tc main_v3) = dst (m ((c : Thread nD τ).loc main_arg1)) := (W2_of_ne m ρ c main_v3 (by decide)).trans (v3_1 m ρ c)
theorem arg5_2 : W2 m ρ c (Proc.devRef .tc main_arg5) = (m ((c : Thread nD τ).loc main_arg5)) := keep2 m ρ c main_arg5 (by decide) (by decide)
theorem arg8_2 : W2 m ρ c (Proc.devRef .tc main_arg8) = (m ((c : Thread nD τ).loc main_arg8)) := keep2 m ρ c main_arg8 (by decide) (by decide)
/-- An input array of region 0 ends as it was. -/
theorem arg0_2 : W2 m ρ c (Proc.devRef .tc main_arg0) = (m ((c : Thread nD τ).loc main_arg0)) :=
  (W2_arr m ρ c 0).trans ((((dat0 (V1 m ρ) c).arrAt_in 0 rfl _).trans (A_eq0 (V1 m ρ) c 0)).trans (arg0_1 m ρ c))

/-! ### At region 1's entry -/

/-- The neighbourhood sums of the projected features. -/
theorem v24_3 : W3 m ρ c (Proc.devRef .tc main_v24) = kS1 (m ((c : Thread nD τ).loc main_arg0)) (m ((c : Thread nD τ).loc main_arg1)) (m ((c : Thread nD τ).loc main_arg2)) (m ((c : Thread nD τ).loc main_arg3)) :=
  read1_v24 _ _ _ (v3_2 m ρ c) (v1_2 m ρ c) (v14_2 m ρ c)
theorem v12_3 : W3 m ρ c (Proc.devRef .tc main_v12) = recip (m ((c : Thread nD τ).loc main_arg1)) :=
  (keeps1 _ main_v12 (by decide)).trans ((W2_of_ne m ρ c main_v12 (by decide)).trans (v12_1 m ρ c))
theorem arg0_3 : W3 m ρ c (Proc.devRef .tc main_arg0) = (m ((c : Thread nD τ).loc main_arg0)) := (keeps1 _ main_arg0 (by decide)).trans (arg0_2 m ρ c)
theorem arg4_3 : W3 m ρ c (Proc.devRef .tc main_arg4) = (m ((c : Thread nD τ).loc main_arg4)) := keep3 m ρ c main_arg4 (by decide) (by decide) (by decide)
theorem arg6_3 : W3 m ρ c (Proc.devRef .tc main_arg6) = (m ((c : Thread nD τ).loc main_arg6)) := keep3 m ρ c main_arg6 (by decide) (by decide) (by decide)
theorem arg7_3 : W3 m ρ c (Proc.devRef .tc main_arg7) = (m ((c : Thread nD τ).loc main_arg7)) := keep3 m ρ c main_arg7 (by decide) (by decide) (by decide)
theorem v25_3 : W3 m ρ c (Proc.devRef .tc main_v25) = shapeCast S1x256 (m ((c : Thread nD τ).loc main_arg5)) shapeCasts_S256_S1x256 :=
  (read1_v25 _).trans (congrArg (fun x => shapeCast S1x256 x shapeCasts_S256_S1x256) (arg5_2 m ρ c))
theorem v26_3 : W3 m ρ c (Proc.devRef .tc main_v26) = shapeCast S1x256 (m ((c : Thread nD τ).loc main_arg8)) shapeCasts_S256_S1x256 :=
  (read1_v26 _).trans (congrArg (fun x => shapeCast S1x256 x shapeCasts_S256_S1x256) (arg8_2 m ρ c))
theorem v1_3 : W3 m ρ c (Proc.devRef .tc main_v1) = src (m ((c : Thread nD τ).loc main_arg1)) := (keeps1 _ main_v1 (by decide)).trans (v1_2 m ρ c)
theorem v3_3 : W3 m ρ c (Proc.devRef .tc main_v3) = dst (m ((c : Thread nD τ).loc main_arg1)) := (keeps1 _ main_v3 (by decide)).trans (v3_2 m ρ c)

/-! ### At region 1's exit -/

/-- Region 1's first output: layer 1's output. -/
theorem v27_0_4 : W4 m ρ c (Proc.devRef .tc main_v27_0) = kH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W4_arr m ρ c 8).trans ((final1_8 (V3 m ρ) c).trans (hid1_congr (v24_3 m ρ c) (v12_3 m ρ c) (arg0_3 m ρ c)
    (arg4_3 m ρ c) (v25_3 m ρ c) (arg6_3 m ρ c)))
/-- Region 1's second output: layer 2's projected features. -/
theorem v27_1_4 : W4 m ρ c (Proc.devRef .tc main_v27_1) = kHP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W4_arr m ρ c 9).trans ((final1_9 (V3 m ρ) c).trans (hidproj1_congr (v24_3 m ρ c) (v12_3 m ρ c) (arg0_3 m ρ c)
    (arg4_3 m ρ c) (v25_3 m ρ c) (arg6_3 m ρ c) (arg7_3 m ρ c) (v26_3 m ρ c)))
theorem v1_4 : W4 m ρ c (Proc.devRef .tc main_v1) = src (m ((c : Thread nD τ).loc main_arg1)) := (W4_of_ne m ρ c main_v1 (by decide)).trans (v1_3 m ρ c)
theorem v3_4 : W4 m ρ c (Proc.devRef .tc main_v3) = dst (m ((c : Thread nD τ).loc main_arg1)) := (W4_of_ne m ρ c main_v3 (by decide)).trans (v3_3 m ρ c)
/-- An input array of region 1 ends as it was. -/
theorem v12_4 : W4 m ρ c (Proc.devRef .tc main_v12) = recip (m ((c : Thread nD τ).loc main_arg1)) :=
  (W4_arr m ρ c 1).trans ((((dat1 (V3 m ρ) c).arrAt_in 1 rfl _).trans (A_eq1 (V3 m ρ) c 1)).trans (v12_3 m ρ c))
theorem arg10_4 : W4 m ρ c (Proc.devRef .tc main_arg10) = (m ((c : Thread nD τ).loc main_arg10)) := keep4 m ρ c main_arg10 (by decide) (by decide) (by decide) (by decide)

/-! ### At region 2's entry -/

/-- The neighbourhood sums of layer 2's projected features. -/
theorem v37_5 : W5 m ρ c (Proc.devRef .tc main_v37) = kS2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  read2_v37 _ _ _ (v3_4 m ρ c) (v1_4 m ρ c) (v27_1_4 m ρ c)
theorem v12_5 : W5 m ρ c (Proc.devRef .tc main_v12) = recip (m ((c : Thread nD τ).loc main_arg1)) := (keeps2 _ main_v12 (by decide)).trans (v12_4 m ρ c)
theorem v27_0_5 : W5 m ρ c (Proc.devRef .tc main_v27_0) = kH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (keeps2 _ main_v27_0 (by decide)).trans (v27_0_4 m ρ c)
theorem arg9_5 : W5 m ρ c (Proc.devRef .tc main_arg9) = (m ((c : Thread nD τ).loc main_arg9)) := keep5 m ρ c main_arg9 (by decide) (by decide) (by decide) (by decide) (by decide)
theorem arg11_5 : W5 m ρ c (Proc.devRef .tc main_arg11) = (m ((c : Thread nD τ).loc main_arg11)) := keep5 m ρ c main_arg11 (by decide) (by decide) (by decide) (by decide) (by decide)
theorem v38_5 : W5 m ρ c (Proc.devRef .tc main_v38) = shapeCast S1x128 (m ((c : Thread nD τ).loc main_arg10)) shapeCasts_S128_S1x128 :=
  (read2_v38 _).trans (congrArg (fun x => shapeCast S1x128 x shapeCasts_S128_S1x128) (arg10_4 m ρ c))

end Stages

/-- After the third region the returned array is `kOut` of the launch contents of the arguments. -/
theorem returned (c : Dev nD) :
    W6 m ρ c (Proc.devRef .tc main_v39)
      = kOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) := by
  exact (W6_arr m ρ c 6).trans ((final2 (V5 m ρ) c).trans (out2_congr (v37_5 m ρ c) (v12_5 m ρ c) (v27_0_5 m ρ c)
    (arg9_5 m ρ c) (v38_5 m ρ c) (arg11_5 m ρ c)))

end Cert.KernelIdeal.Fold

end
-- ==== Proof.KernelHostIdx.lean ====
/-
  The kernel program's host-side layout operations, read at one element.

  Before the regions the host reshapes each bias vector [D] to a row [1, D], and turns the neighbour counts
  [50000] into a column of reciprocals [50000, 1]: the counts reshaped to a column, clamped below at one,
  and one divided by that. Read at an element: the bias row at (0, j) is the bias at j; the reciprocal
  column at (n, 0) is one over the clamped count of node n.
-/
import proofs.«101149_j6871947673826_2_alg».proof.Proof.Gen.KernelIdeal
import proofs.«101149_j6871947673826_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostIdx

open Cert.KernelIdeal Cert.KernelIdeal.Gen Cert.Spec Idealize.ShloMosaic Idealize.ShloMosaic.ValueIdx

/-- A bias vector reshaped to a row, at (0, j). -/
theorem bias_row_128 (b : FVec Ideal S128 .f32) (j : Fin 128) :
    shapeCast S1x128 b shapeCasts_S128_S1x128 (ix2 (0 : Fin 1) j) = b (ix1 j) := by
  exact shapeCast_a_1a_apply b shapeCasts_S128_S1x128 (0 : Fin 1) j

theorem bias_row_256 (b : FVec Ideal S256 .f32) (j : Fin 256) :
    shapeCast S1x256 b shapeCasts_S256_S1x256 (ix2 (0 : Fin 1) j) = b (ix1 j) := by
  exact shapeCast_a_1a_apply b shapeCasts_S256_S1x256 (0 : Fin 1) j

/-- The reciprocal-count column at node n: one over the count clamped below at one. -/
theorem recip_count (cnt : FVec Ideal S50000 .f32) (n : Fin 50000) :
    Host.divf (F := Ideal)
        (broadcastInDim S50000x1 ![] bcast_S_S50000x1 (constant (F := Ideal) S_ .f32 0x3F800000#32))
        (maximumf (shapeCast S50000x1 cnt shapeCasts_S50000_S50000x1)
          (broadcastInDim S50000x1 ![] bcast_S_S50000x1 (constant (F := Ideal) S_ .f32 0x3F800000#32)))
        (ix2 n (0 : Fin 1))
      = Ideal.div (Ideal.ofBits .f32 0x3F800000#32) (max (cnt (ix1 n)) (Ideal.ofBits .f32 0x3F800000#32)) := by
  -- the broadcast scalar one reads the word for one at every index
  have hb : ∀ i : S50000x1.Idx,
      broadcastInDim S50000x1 ![] bcast_S_S50000x1 (constant (F := Ideal) S_ .f32 0x3F800000#32) i
        = Ideal.ofBits .f32 0x3F800000#32 := fun i =>
    (broadcastInDim_apply _ bcast_S_S50000x1 (constant (F := Ideal) S_ .f32 0x3F800000#32) i ix0 (fun a => a.elim0)).trans rfl
  -- the count column at (n, 0) has the flat position n
  have hs : shapeCast S50000x1 cnt shapeCasts_S50000_S50000x1 (ix2 n (0 : Fin 1)) = cnt (ix1 n) :=
    shapeCast_apply cnt shapeCasts_S50000_S50000x1 (ix2 n (0 : Fin 1)) (ix1 n) (by
      rw [Shape.rowMajor_val_one, Shape.rowMajor_val_two]
      show n.val = n.val * 1 + ((0 : Fin 1) : ℕ)
      rw [Nat.mul_one]; rfl)
  show Ideal.div
      (broadcastInDim S50000x1 ![] bcast_S_S50000x1 (constant (F := Ideal) S_ .f32 0x3F800000#32) (ix2 n (0 : Fin 1)))
      (max (shapeCast S50000x1 cnt shapeCasts_S50000_S50000x1 (ix2 n (0 : Fin 1)))
        (broadcastInDim S50000x1 ![] bcast_S_S50000x1 (constant (F := Ideal) S_ .f32 0x3F800000#32) (ix2 n (0 : Fin 1))))
    = _
  rw [hb, hs]

end Cert.KernelIdeal.HostIdx

end
-- ==== Proof.RefStages.lean ====
/-
  The reference's layer-1 dense stages, each as the specification's row formula of its operands, and the clamped
  neighbour counts.

  The reference is a chain of whole-array operations. Read at an index `i = (n, j)`, each dense stage depends
  only on node `n`'s rows: a `dot_general` is the sum over the contracted axis, a bias broadcast reads its
  column, the clamped neighbour count broadcast along lanes reads node `n`'s entry. The gather and scatter-add
  stages are not opened: they stay as the stages `val_main_v18` (neighbourhood sums) and `val_main_v22`
  (neighbour counts). In each proof those stages are turned into variables before any step that computes on the
  extended reals, so that no step ever evaluates a scatter-add.
-/
import proofs.«101149_j6871947673826_2_alg».proof.Proof.Gen.ReferenceIdeal.Read
import proofs.«101149_j6871947673826_2_alg».proof.Proof.Spec
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Read Cert.Spec Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x256, .f32⟩ : BufTy).Contents (Elt Ideal)) (x5 : (⟨S256, .f32⟩ : BufTy).Contents (Elt Ideal))
  (x6 : (⟨S128x256, .f32⟩ : BufTy).Contents (Elt Ideal)) (x7 : (⟨S256x256, .f32⟩ : BufTy).Contents (Elt Ideal))
  (x8 : (⟨S256, .f32⟩ : BufTy).Contents (Elt Ideal)) (x9 : (⟨S256x128, .f32⟩ : BufTy).Contents (Elt Ideal))
  (x10 : (⟨S128, .f32⟩ : BufTy).Contents (Elt Ideal)) (x11 : (⟨S256x128, .f32⟩ : BufTy).Contents (Elt Ideal))

/-- Layer 1's projected features. -/
theorem xp_eq : val_main_v8 (F := Ideal) x0 x2 x3
    = fun i => projRow (fun k : Fin 128 => x0 (ix2 (i 0) k)) x2 (fun j : Fin 128 => x3 (ix1 j)) (i 1) := by
  funext i
  have hl : ∀ k : Fin 128, lidx_main_v4 i k = (ix2 (i 0) k : S50000x128.Idx) := fun k =>
    funext fun a => Fin.ext (by match a with | ⟨0, _⟩ => rfl | ⟨1, _⟩ => rfl)
  have hr : ∀ k : Fin 128, ridx_main_v4 i k = (ix2 k (i 1) : S128x128.Idx) := fun k =>
    funext fun a => Fin.ext (by match a with | ⟨0, _⟩ => rfl | ⟨1, _⟩ => rfl)
  have hb : idx_main_v5 (idx_main_v6 i) = (ix1 (i 1) : S128.Idx) :=
    funext fun a => Fin.ext (by match a with | ⟨0, _⟩ => rfl)
  simp only [val_main_v8_apply, val_main_v7_apply, val_main_v4_apply, val_main_v6_apply, val_main_v5_apply,
    val_main_call0_v0_apply, val_main_call0_cst_apply, hl, hr, hb,
    Ideal.maximumf_def, Ideal.addf_def, Ideal.ofBits_def, projRow, relu, lin]

/-- Layer 1's output: the neighbourhood sum DIVIDED by the clamped count, through `wl`, plus `bl`, plus the root term, positive part. -/
theorem h_eq : val_main_v34 (F := Ideal) x0 x1 x2 x3 x4 x5 x6
    = fun i => relu (combRow
        (fun k : Fin 128 => Ideal.div (val_main_v18 (F := Ideal) x0 x1 x2 x3 (ix2 (i 0) k)) (val_main_v24 (F := Ideal) x1 (ix1 (i 0))))
        (fun k : Fin 128 => x0 (ix2 (i 0) k)) x4 (fun j : Fin 256 => x5 (ix1 j)) x6 (i 1)) := by
  funext i
  have hl : ∀ k : Fin 128, lidx_main_v28 i k = (ix2 (i 0) k : S50000x128.Idx) := fun k =>
    funext fun a => Fin.ext (by match a with | ⟨0, _⟩ => rfl | ⟨1, _⟩ => rfl)
  have hr : ∀ k : Fin 128, ridx_main_v28 i k = (ix2 k (i 1) : S128x256.Idx) := fun k =>
    funext fun a => Fin.ext (by match a with | ⟨0, _⟩ => rfl | ⟨1, _⟩ => rfl)
  have hc : ∀ k : Fin 128, idx_main_v25 (idx_main_v26 (ix2 (i 0) k : S50000x128.Idx)) = (ix1 (i 0) : S50000.Idx) := fun k =>
    funext fun a => Fin.ext (by match a with | ⟨0, _⟩ => rfl)
  have hb : idx_main_v29 (idx_main_v30 i) = (ix1 (i 1) : S256.Idx) :=
    funext fun a => Fin.ext (by match a with | ⟨0, _⟩ => rfl)
  have hl' : ∀ k : Fin 128, lidx_main_v32 i k = (ix2 (i 0) k : S50000x128.Idx) := fun k =>
    funext fun a => Fin.ext (by match a with | ⟨0, _⟩ => rfl | ⟨1, _⟩ => rfl)
  have hr' : ∀ k : Fin 128, ridx_main_v32 i k = (ix2 k (i 1) : S128x256.Idx) := fun k =>
    funext fun a => Fin.ext (by match a with | ⟨0, _⟩ => rfl | ⟨1, _⟩ => rfl)
  have hm : ∀ k : Fin 128, val_main_v27 (F := Ideal) x0 x1 x2 x3 (ix2 (i 0) k : S50000x128.Idx)
      = Ideal.div (val_main_v18 (F := Ideal) x0 x1 x2 x3 (ix2 (i 0) k)) (val_main_v24 (F := Ideal) x1 (ix1 (i 0))) := fun k => by
    rw [val_main_v27_apply, val_main_v26_apply, val_main_v25_apply, Ideal.hostDivf_def, hc k]
  rw [val_main_v34_apply, val_main_v33_apply, val_main_v31_apply, val_main_v28_apply, val_main_v30_apply,
    val_main_v29_apply, val_main_v32_apply, val_main_call1_v0_apply, val_main_call1_cst_apply]
  simp only [hl, hr, hb, hl', hr', hm]
  generalize val_main_v18 (F := Ideal) x0 x1 x2 x3 = s
  generalize val_main_v24 (F := Ideal) x1 = c
  simp only [Ideal.maximumf_def, Ideal.addf_def, Ideal.ofBits_def, combRow, relu, lin]

/-- Both layers clamp the same neighbour counts. -/
theorem cnt_eq : val_main_v55 (F := Ideal) x1 = val_main_v24 (F := Ideal) x1 := by
  unfold val_main_v55 val_main_v24 val_main_v53 val_main_v22 val_main_v54 val_main_v23 val_main_v50 val_main_v19
    val_main_v51 val_main_v20 val_main_v52 val_main_v21 val_main_cst_7 val_main_cst_1 val_main_cst_8 val_main_cst_2
    val_main_cst_9 val_main_cst_3
  rfl

/-- The clamped count is the count against the float word one. -/
theorem cnt_clamped (n : S50000.Idx) :
    val_main_v24 (F := Ideal) x1 n = max (val_main_v22 (F := Ideal) x1 n) (Ideal.ofBits .f32 0x3F800000#32) := by
  rw [val_main_v24_apply, val_main_v23_apply, val_main_cst_3_apply, Ideal.ofBits_def]
  generalize val_main_v22 (F := Ideal) x1 n = c
  generalize Ideal.ofBits .f32 0x3F800000#32 = w
  exact Ideal.maximumf_def c w

end Cert.ReferenceIdeal.Stages

end
-- ==== Proof.RefStages2.lean ====
/-
  The reference's layer-2 dense stages as the specification's row formulas.

  Layer 2's projected features are layer 1's output row through the projection weights, plus the bias, positive
  part. The result is layer 2's combination of the mean of the neighbourhood sums and the root term, scaled by its
  Euclidean norm clamped below, positive part: the combination before normalisation is read first at a node `n` and
  a lane `l` (`comb2_at`); the result then reads it at its own lane and, under the sum of squares, at every lane of
  the same node. The gather and scatter-add stages stay unopened, and are turned into variables before any step
  that computes on the extended reals.
-/
import proofs.«101149_j6871947673826_2_alg».proof.Proof.Gen.ReferenceIdeal.Read
import proofs.«101149_j6871947673826_2_alg».proof.Proof.Spec
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Read Cert.Spec Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x256, .f32⟩ : BufTy).Contents (Elt Ideal)) (x5 : (⟨S256, .f32⟩ : BufTy).Contents (Elt Ideal))
  (x6 : (⟨S128x256, .f32⟩ : BufTy).Contents (Elt Ideal)) (x7 : (⟨S256x256, .f32⟩ : BufTy).Contents (Elt Ideal))
  (x8 : (⟨S256, .f32⟩ : BufTy).Contents (Elt Ideal)) (x9 : (⟨S256x128, .f32⟩ : BufTy).Contents (Elt Ideal))
  (x10 : (⟨S128, .f32⟩ : BufTy).Contents (Elt Ideal)) (x11 : (⟨S256x128, .f32⟩ : BufTy).Contents (Elt Ideal))

/-- Layer 2's projected features, of layer 1's output. -/
theorem hp_eq : val_main_v39 (F := Ideal) x0 x1 x2 x3 x4 x5 x6 x7 x8
    = fun i => projRow (fun k : Fin 256 => val_main_v34 (F := Ideal) x0 x1 x2 x3 x4 x5 x6 (ix2 (i 0) k)) x7
        (fun j : Fin 256 => x8 (ix1 j)) (i 1) := by
  funext i
  have hl : ∀ k : Fin 256, lidx_main_v35 i k = (ix2 (i 0) k : S50000x256.Idx) := fun k =>
    funext fun a => Fin.ext (by match a with | ⟨0, _⟩ => rfl | ⟨1, _⟩ => rfl)
  have hr : ∀ k : Fin 256, ridx_main_v35 i k = (ix2 k (i 1) : S256x256.Idx) := fun k =>
    funext fun a => Fin.ext (by match a with | ⟨0, _⟩ => rfl | ⟨1, _⟩ => rfl)
  have hb : idx_main_v36 (idx_main_v37 i) = (ix1 (i 1) : S256.Idx) :=
    funext fun a => Fin.ext (by match a with | ⟨0, _⟩ => rfl)
  rw [val_main_v39_apply, val_main_v38_apply, val_main_v35_apply, val_main_v37_apply, val_main_v36_apply,
    val_main_call2_v0_apply, val_main_call2_cst_apply]
  simp only [hl, hr, hb]
  generalize val_main_v34 (F := Ideal) x0 x1 x2 x3 x4 x5 x6 = h
  simp only [Ideal.maximumf_def, Ideal.addf_def, Ideal.ofBits_def, projRow, relu, lin]

/-- Layer 2's combination before normalisation, read at node `n` and lane `l`: the neighbourhood sum DIVIDED by the
    clamped count, through `wl`, plus `bl`, plus the root term. -/
theorem comb2_at (n : Fin 50000) (l : Fin 128) : val_main_v64 (F := Ideal) x0 x1 x2 x3 x4 x5 x6 x7 x8 x9 x10 x11 (ix2 n l)
    = combRow
        (fun k : Fin 256 => Ideal.div (val_main_v49 (F := Ideal) x0 x1 x2 x3 x4 x5 x6 x7 x8 (ix2 n k)) (val_main_v55 (F := Ideal) x1 (ix1 n)))
        (fun k : Fin 256 => val_main_v34 (F := Ideal) x0 x1 x2 x3 x4 x5 x6 (ix2 n k)) x9 (fun j : Fin 128 => x10 (ix1 j)) x11 l := by
  have hl : ∀ k : Fin 256, lidx_main_v59 (ix2 n l : S50000x128.Idx) k = (ix2 n k : S50000x256.Idx) := fun k =>
    funext fun a => Fin.ext (by match a with | ⟨0, _⟩ => rfl | ⟨1, _⟩ => rfl)
  have hr : ∀ k : Fin 256, ridx_main_v59 (ix2 n l : S50000x128.Idx) k = (ix2 k l : S256x128.Idx) := fun k =>
    funext fun a => Fin.ext (by match a with | ⟨0, _⟩ => rfl | ⟨1, _⟩ => rfl)
  have hc : ∀ k : Fin 256, idx_main_v56 (idx_main_v57 (ix2 n k : S50000x256.Idx)) = (ix1 n : S50000.Idx) := fun k =>
    funext fun a => Fin.ext (by match a with | ⟨0, _⟩ => rfl)
  have hb : idx_main_v60 (idx_main_v61 (ix2 n l : S50000x128.Idx)) = (ix1 l : S128.Idx) :=
    funext fun a => Fin.ext (by match a with | ⟨0, _⟩ => rfl)
  have hl' : ∀ k : Fin 256, lidx_main_v63 (ix2 n l : S50000x128.Idx) k = (ix2 n k : S50000x256.Idx) := fun k =>
    funext fun a => Fin.ext (by match a with | ⟨0, _⟩ => rfl | ⟨1, _⟩ => rfl)
  have hr' : ∀ k : Fin 256, ridx_main_v63 (ix2 n l : S50000x128.Idx) k = (ix2 k l : S256x128.Idx) := fun k =>
    funext fun a => Fin.ext (by match a with | ⟨0, _⟩ => rfl | ⟨1, _⟩ => rfl)
  have hm : ∀ k : Fin 256, val_main_v58 (F := Ideal) x0 x1 x2 x3 x4 x5 x6 x7 x8 (ix2 n k : S50000x256.Idx)
      = Ideal.div (val_main_v49 (F := Ideal) x0 x1 x2 x3 x4 x5 x6 x7 x8 (ix2 n k)) (val_main_v55 (F := Ideal) x1 (ix1 n)) := fun k => by
    rw [val_main_v58_apply, val_main_v57_apply, val_main_v56_apply, Ideal.hostDivf_def, hc k]
  rw [val_main_v64_apply, val_main_v62_apply, val_main_v59_apply, val_main_v61_apply, val_main_v60_apply,
    val_main_v63_apply]
  simp only [hl, hr, hb, hl', hr', hm]
  generalize val_main_v49 (F := Ideal) x0 x1 x2 x3 x4 x5 x6 x7 x8 = s
  generalize val_main_v55 (F := Ideal) x1 = c
  generalize val_main_v34 (F := Ideal) x0 x1 x2 x3 x4 x5 x6 = h
  simp only [Ideal.addf_def, combRow, lin]

/-- The result: layer 2's combination, normalised, positive part. -/
theorem out_eq : val_main_v73 (F := Ideal) x0 x1 x2 x3 x4 x5 x6 x7 x8 x9 x10 x11
    = fun i => normRow (fun l : Fin 128 => combRow
        (fun k : Fin 256 => Ideal.div (val_main_v49 (F := Ideal) x0 x1 x2 x3 x4 x5 x6 x7 x8 (ix2 (i 0) k)) (val_main_v55 (F := Ideal) x1 (ix1 (i 0))))
        (fun k : Fin 256 => val_main_v34 (F := Ideal) x0 x1 x2 x3 x4 x5 x6 (ix2 (i 0) k)) x9 (fun j : Fin 128 => x10 (ix1 j)) x11 l) (i 1) := by
  funext i
  have hs : ∀ l : Fin 128, idx_main_v66 (idx_main_v67 (idx_main_v71 i)) l = (ix2 (i 0) l : S50000x128.Idx) := fun l =>
    funext fun a => Fin.ext (by match a with | ⟨0, _⟩ => rfl | ⟨1, _⟩ => rfl)
  have hsq : ∀ l : Fin 128, val_main_v65 (F := Ideal) x0 x1 x2 x3 x4 x5 x6 x7 x8 x9 x10 x11 (ix2 (i 0) l : S50000x128.Idx)
      = val_main_v64 (F := Ideal) x0 x1 x2 x3 x4 x5 x6 x7 x8 x9 x10 x11 (ix2 (i 0) l) * val_main_v64 (F := Ideal) x0 x1 x2 x3 x4 x5 x6 x7 x8 x9 x10 x11 (ix2 (i 0) l) := fun l => by
    rw [val_main_v65_apply, Ideal.mulf_def]
  have hrow := fun l : Fin 128 => comb2_at x0 x1 x2 x3 x4 x5 x6 x7 x8 x9 x10 x11 (i 0) l
  have hi := (congrArg (val_main_v64 (F := Ideal) x0 x1 x2 x3 x4 x5 x6 x7 x8 x9 x10 x11) (eq_ix2 i)).trans (comb2_at x0 x1 x2 x3 x4 x5 x6 x7 x8 x9 x10 x11 (i 0) (i 1))
  rw [val_main_v73_apply, val_main_v72_apply, val_main_v71_apply, val_main_v70_apply, val_main_v68_apply,
    val_main_v67_apply, val_main_v66_apply, val_main_v69_apply, val_main_cst_11_apply, val_main_cst_10_apply,
    val_main_call3_v0_apply, val_main_call3_cst_apply]
  set_option simprocs false in simp only [hs, hsq, hrow, hi]
  generalize val_main_v49 (F := Ideal) x0 x1 x2 x3 x4 x5 x6 x7 x8 = s
  generalize val_main_v55 (F := Ideal) x1 = c
  generalize val_main_v34 (F := Ideal) x0 x1 x2 x3 x4 x5 x6 = h
  set_option simprocs false in simp only [Ideal.maximumf_def, Ideal.hostDivf_def, Ideal.hostUnary_sqrt_def, Ideal.ofBits_def,
    Ideal.ofBits_zero_f32, zero_add, normRow, relu]

end Cert.ReferenceIdeal.Stages

end
-- ==== Proof.Bridge.lean ====
/-
  The two programs compute one function: the kernel's stages are the reference's stages.

  Stage by stage, with the twelve arguments fixed:
    * layer 1's projected features agree (both are the projection row formula; the kernel's bias is the same
      vector reshaped to a row);
    * the host's gather / scatter-add chain is the same chain of operations on both sides, so equal inputs give
      equal neighbourhood sums, and the neighbour counts are the same array;
    * layer 1's output: the kernel multiplies a row of neighbourhood sums by the reciprocal `1 / max cnt 1`, the
      reference divides it by `max cnt 1`; these agree on the extended reals because `max cnt 1 ≠ 0`;
    * layer 2's projected features, their neighbourhood sums, and the result follow in the same way.
-/
import proofs.«101149_j6871947673826_2_alg».proof.Proof.Spec
import proofs.«101149_j6871947673826_2_alg».proof.Proof.KernelFold
import proofs.«101149_j6871947673826_2_alg».proof.Proof.KernelHostIdx
import proofs.«101149_j6871947673826_2_alg».proof.Proof.RefStages
import proofs.«101149_j6871947673826_2_alg».proof.Proof.RefStages2

set_option maxRecDepth 16384

noncomputable section

namespace Cert.Bridge

open Cert.Spec Cert.KernelIdeal.Fold Cert.KernelIdeal.Blocks Cert.KernelIdeal.HostIdx
open Cert.ReferenceIdeal.Read Cert.ReferenceIdeal.Stages
open Idealize.ShloMosaic Idealize.ShloMosaic.ValueIdx

variable (a0 : (⟨Cert.KernelIdeal.S50000x128, .f32⟩ : BufTy).Contents (Elt Ideal))
  (a1 : (⟨Cert.KernelIdeal.S2x800000, .i32⟩ : BufTy).Contents (Elt Ideal))
  (a2 : (⟨Cert.KernelIdeal.S128x128, .f32⟩ : BufTy).Contents (Elt Ideal)) (a3 : (⟨Cert.KernelIdeal.S128, .f32⟩ : BufTy).Contents (Elt Ideal))
  (a4 : (⟨Cert.KernelIdeal.S128x256, .f32⟩ : BufTy).Contents (Elt Ideal)) (a5 : (⟨Cert.KernelIdeal.S256, .f32⟩ : BufTy).Contents (Elt Ideal))
  (a6 : (⟨Cert.KernelIdeal.S128x256, .f32⟩ : BufTy).Contents (Elt Ideal)) (a7 : (⟨Cert.KernelIdeal.S256x256, .f32⟩ : BufTy).Contents (Elt Ideal))
  (a8 : (⟨Cert.KernelIdeal.S256, .f32⟩ : BufTy).Contents (Elt Ideal)) (a9 : (⟨Cert.KernelIdeal.S256x128, .f32⟩ : BufTy).Contents (Elt Ideal))
  (a10 : (⟨Cert.KernelIdeal.S128, .f32⟩ : BufTy).Contents (Elt Ideal)) (a11 : (⟨Cert.KernelIdeal.S256x128, .f32⟩ : BufTy).Contents (Elt Ideal))

/-! ## The edge list's index columns and the counts are the same arrays -/

theorem dstIdx_v17 : dstIdx a1 = val_main_v17 (F := Ideal) a1 := rfl
theorem dstIdx_v21 : dstIdx a1 = val_main_v21 (F := Ideal) a1 := rfl
theorem dstIdx_v48 : dstIdx a1 = val_main_v48 (F := Ideal) a1 := rfl
theorem srcIdx_v14 : srcIdx a1 = val_main_v14 (F := Ideal) a1 := rfl
theorem srcIdx_v45 : srcIdx a1 = val_main_v45 (F := Ideal) a1 := rfl

/-- The neighbour counts. -/
theorem cnt_v22 : cnt a1 = val_main_v22 (F := Ideal) a1 := by
  unfold cnt val_main_v22
  rw [dstIdx_v21]
  rfl

/-- The kernel's reciprocal column at node `n`, against the reference's clamped count. -/
theorem recip_at (n : Fin 50000) :
    recip a1 (ix2 n (0 : Fin 1))
      = Ideal.div (Ideal.ofBits .f32 0x3F800000#32) (val_main_v24 (F := Ideal) a1 (ix1 n)) := by
  unfold recip
  rw [recip_count (cnt a1) n, cnt_v22, cnt_clamped]

/-- A neighbourhood sum times the reciprocal count is that sum divided by the clamped count. -/
theorem mean_eq (s : EReal) (n : Fin 50000) :
    s * recip a1 (ix2 n (0 : Fin 1)) = Ideal.div s (val_main_v24 (F := Ideal) a1 (ix1 n)) := by
  rw [recip_at]
  refine mul_recip s _ ?_
  rw [cnt_clamped]
  exact max_one_ne_zero _

/-! ## The stages -/

/-- Layer 1's projected features. -/
theorem xp_bridge : kXP a0 a2 a3 = val_main_v8 (F := Ideal) a0 a2 a3 := by
  refine Eq.trans ?_ (xp_eq a0 a2 a3).symm
  unfold kXP proj1
  funext i
  exact projRow_congr (fun k => rfl) rfl (fun j => bias_row_128 a3 j) rfl

/-- Their neighbourhood sums. -/
theorem s1_bridge : kS1 a0 a1 a2 a3 = val_main_v18 (F := Ideal) a0 a1 a2 a3 := by
  unfold kS1 agg128 val_main_v18 val_main_v15
  rw [xp_bridge, dstIdx_v17, srcIdx_v14]
  rfl

/-- Layer 1's output. -/
theorem h_bridge : kH a0 a1 a2 a3 a4 a5 a6 = val_main_v34 (F := Ideal) a0 a1 a2 a3 a4 a5 a6 := by
  refine Eq.trans ?_ (h_eq a0 a1 a2 a3 a4 a5 a6).symm
  unfold kH hid1
  funext i
  refine congrArg relu (combRow_congr (fun k => ?_) (fun k => rfl) rfl (fun j => bias_row_256 a5 j) rfl rfl)
  show kS1 a0 a1 a2 a3 (ix2 (i 0) k) * recip a1 (ix2 (i 0) (0 : Fin 1)) = _
  rw [s1_bridge]
  exact mean_eq a1 _ (i 0)

/-- Layer 2's projected features. -/
theorem hp_bridge : kHP a0 a1 a2 a3 a4 a5 a6 a7 a8 = val_main_v39 (F := Ideal) a0 a1 a2 a3 a4 a5 a6 a7 a8 := by
  refine Eq.trans ?_ (hp_eq a0 a1 a2 a3 a4 a5 a6 a7 a8).symm
  unfold kHP hidproj1
  funext i
  refine projRow_congr (fun k => ?_) rfl (fun j => bias_row_256 a8 j) rfl
  show kH a0 a1 a2 a3 a4 a5 a6 (ix2 (i 0) k) = _
  rw [h_bridge]

/-- Their neighbourhood sums. -/
theorem s2_bridge : kS2 a0 a1 a2 a3 a4 a5 a6 a7 a8 = val_main_v49 (F := Ideal) a0 a1 a2 a3 a4 a5 a6 a7 a8 := by
  unfold kS2 agg256 val_main_v49 val_main_v46
  rw [hp_bridge, dstIdx_v48, srcIdx_v45]
  rfl

/-- The result. -/
theorem out_bridge : kOut a0 a1 a2 a3 a4 a5 a6 a7 a8 a9 a10 a11 = val_main_v73 (F := Ideal) a0 a1 a2 a3 a4 a5 a6 a7 a8 a9 a10 a11 := by
  refine Eq.trans ?_ (out_eq a0 a1 a2 a3 a4 a5 a6 a7 a8 a9 a10 a11).symm
  unfold kOut out2
  funext i
  refine normRow_congr (fun l => combRow_congr (fun k => ?_) (fun k => ?_) rfl (fun j => bias_row_128 a10 j) rfl rfl) rfl
  · show kS2 a0 a1 a2 a3 a4 a5 a6 a7 a8 (ix2 (i 0) k) * recip a1 (ix2 (i 0) (0 : Fin 1)) = _
    rw [s2_bridge, cnt_eq]
    exact mean_eq a1 _ (i 0)
  · show kH a0 a1 a2 a3 a4 a5 a6 (ix2 (i 0) k) = _
    rw [h_bridge]

end Cert.Bridge

end
-- ==== Proof.lean ====
/-
  A two-layer mean-aggregation graph network (each layer: project the node features and take their positive
  part; sum the projected features of every node's in-neighbours; divide by the neighbour count clamped below
  at one; combine with the node's own features through two dense layers and a bias; the first layer takes the
  positive part, the second scales each row by its Euclidean norm clamped below at ε and then takes the positive
  part), as a kernel of three grid regions with the gather and scatter-add on the host between them, against the
  same network written with whole-array operations.

  On the extended reals both programs compute one function of the twelve arguments. The regions tile the 50000
  nodes in ten blocks of 5000 rows, and every block's rows are the row formulas of the specification (Spec.lean)
  at the corresponding nodes, so each region's output array is one function of the arrays it finds
  (Blocks0–2.lean over KernelRows.lean); threading those through the host stretches gives the returned array as a
  function of the arguments (KernelFold.lean over KernelRun.lean). The reference's dense stages are the same row
  formulas (RefStages.lean); its gather / scatter-add stages are the kernel's, operation for operation. The one
  place where the two differ is the mean: the kernel multiplies a neighbourhood sum by the reciprocal of the clamped
  count, the reference divides by the clamped count, and these agree because the clamped count is never zero
  (Bridge.lean). No finiteness of the inputs is used.

  The three frames: the two kernel programs' are the generated frame certificates; the reference's is its
  generated run with the result dropped. The idealization rewrote nothing, so `preserves` is trivial.
-/
import proofs.«101149_j6871947673826_2_alg».proof.Defs
import proofs.«101149_j6871947673826_2_alg».proof.Proof.Gen.Kernel
import proofs.«101149_j6871947673826_2_alg».proof.Proof.Gen.Kernel.Skeleton
import proofs.«101149_j6871947673826_2_alg».proof.Proof.Gen.Kernel.Launch
import proofs.«101149_j6871947673826_2_alg».proof.Proof.Gen.Kernel.Points
import proofs.«101149_j6871947673826_2_alg».proof.Proof.Gen.Kernel.Frame
import proofs.«101149_j6871947673826_2_alg».proof.Proof.Gen.KernelIdeal
import proofs.«101149_j6871947673826_2_alg».proof.Proof.Gen.KernelIdeal.Skeleton
import proofs.«101149_j6871947673826_2_alg».proof.Proof.Gen.KernelIdeal.Launch
import proofs.«101149_j6871947673826_2_alg».proof.Proof.Gen.KernelIdeal.Points
import proofs.«101149_j6871947673826_2_alg».proof.Proof.Gen.KernelIdeal.Frame
import proofs.«101149_j6871947673826_2_alg».proof.Proof.Gen.ReferenceIdeal
import proofs.«101149_j6871947673826_2_alg».proof.Proof.Gen.ReferenceIdeal.Run
import proofs.«101149_j6871947673826_2_alg».proof.Proof.Gen.ReferenceIdeal.Read
import proofs.«101149_j6871947673826_2_alg».proof.Proof.Gen.Pre_finite_inputs
import proofs.«101149_j6871947673826_2_alg».proof.Proof.KernelRun
import proofs.«101149_j6871947673826_2_alg».proof.Proof.KernelFold
import proofs.«101149_j6871947673826_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, the kernel's returned array is `kOut` of them and the reference's is
    its last stage of them: one function. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Fold.returned m ρ c), (h c).2⟩)
    (Cert.KernelIdeal.RunOut.run_out m ρ), ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v73_eq, h0, h1, h2, h3, h4, h5, h6, h7, h8, h9, h10, h11]
  exact (Cert.Bridge.out_bridge _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
